-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64 .f32) (main_arg8 : FVec F S64x16 .f32) (main_arg9 : FVec F S16 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg8
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S64x16 .f32) (main_arg5 : FVec F S16 .f32) (main_arg6 : FVec F S128x64 .f32) (main_arg7 : FVec F S64 .f32) (main_arg8 : FVec F S64x16 .f32) (main_arg9 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S2x10000x10000 .f32) (main_arg2 : FVec F S128x64 .f32) (main_arg3 : FVec F S64 .f32) (main_arg4 : FVec F S64x16 .f32) (main_arg5 : FVec F S16 .f32) (main_arg6 : FVec F S128x64 .f32) (main_arg7 : FVec F S64 .f32) (main_arg8 : FVec F S64x16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S2x10000x10000 : Shape := ⟨3, ![2, 10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x128x64 : Shape := ⟨3, ![1, 128, 64]⟩
abbrev S2x128x64 : Shape := ⟨3, ![2, 128, 64]⟩
abbrev S1x64 : Shape := ⟨2, ![1, 64]⟩
abbrev S2x64 : Shape := ⟨2, ![2, 64]⟩
abbrev S2x1x64 : Shape := ⟨3, ![2, 1, 64]⟩
abbrev S1x64x16 : Shape := ⟨3, ![1, 64, 16]⟩
abbrev S2x64x16 : Shape := ⟨3, ![2, 64, 16]⟩
abbrev S1x16 : Shape := ⟨2, ![1, 16]⟩
abbrev S2x16 : Shape := ⟨2, ![2, 16]⟩
abbrev S2x1x16 : Shape := ⟨3, ![2, 1, 16]⟩
abbrev S2x10000x64 : Shape := ⟨3, ![2, 10000, 64]⟩
abbrev S2x10000x16 : Shape := ⟨3, ![2, 10000, 16]⟩
abbrev S10000x16 : Shape := ⟨2, ![10000, 16]⟩
abbrev S200x128 : Shape := ⟨2, ![200, 128]⟩
abbrev S2x200x64 : Shape := ⟨3, ![2, 200, 64]⟩
abbrev S200x64 : Shape := ⟨2, ![200, 64]⟩
abbrev S1x200x64 : Shape := ⟨3, ![1, 200, 64]⟩
abbrev S1x200x10000 : Shape := ⟨3, ![1, 200, 10000]⟩
abbrev S1x10000x64 : Shape := ⟨3, ![1, 10000, 64]⟩
abbrev S1x1x64 : Shape := ⟨3, ![1, 1, 64]⟩
abbrev S1x200x16 : Shape := ⟨3, ![1, 200, 16]⟩
abbrev S200x10000 : Shape := ⟨2, ![200, 10000]⟩
abbrev S10000x64 : Shape := ⟨2, ![10000, 64]⟩
abbrev S200x16 : Shape := ⟨2, ![200, 16]⟩
abbrev S1x10000x16 : Shape := ⟨3, ![1, 10000, 16]⟩
abbrev S1x1x16 : Shape := ⟨3, ![1, 1, 16]⟩

abbrev nBuf : Space → Nat
  | .hbm => 27
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S128x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S1x128x64, .f32⟩
  | .hbm, ⟨11, _⟩ => ⟨S1x128x64, .f32⟩
  | .hbm, ⟨12, _⟩ => ⟨S2x128x64, .f32⟩
  | .hbm, ⟨13, _⟩ => ⟨S1x64, .f32⟩
  | .hbm, ⟨14, _⟩ => ⟨S1x64, .f32⟩
  | .hbm, ⟨15, _⟩ => ⟨S2x64, .f32⟩
  | .hbm, ⟨16, _⟩ => ⟨S2x1x64, .f32⟩
  | .hbm, ⟨17, _⟩ => ⟨S1x64x16, .f32⟩
  | .hbm, ⟨18, _⟩ => ⟨S1x64x16, .f32⟩
  | .hbm, ⟨19, _⟩ => ⟨S2x64x16, .f32⟩
  | .hbm, ⟨20, _⟩ => ⟨S1x16, .f32⟩
  | .hbm, ⟨21, _⟩ => ⟨S1x16, .f32⟩
  | .hbm, ⟨22, _⟩ => ⟨S2x16, .f32⟩
  | .hbm, ⟨23, _⟩ => ⟨S2x1x16, .f32⟩
  | .hbm, ⟨24, _⟩ => ⟨S2x10000x64, .f32⟩
  | .hbm, ⟨25, _⟩ => ⟨S2x10000x16, .bf16⟩
  | .hbm, ⟨26, _⟩ => ⟨S10000x16, .f32⟩
  | .local _ .vmem, ⟨0, _⟩ => ⟨S200x128, .f32⟩
  | .local _ .vmem, ⟨1, _⟩ => ⟨S200x128, .f32⟩
  | .local _ .vmem, ⟨2, _⟩ => ⟨S2x128x64, .f32⟩
  | .local _ .vmem, ⟨3, _⟩ => ⟨S2x200x64, .f32⟩
  | .local _ .vmem, ⟨4, _⟩ => ⟨S2x200x64, .f32⟩
  | .local _ .vmem, ⟨5, _⟩ => ⟨S1x200x10000, .f32⟩
  | .local _ .vmem, ⟨6, _⟩ => ⟨S1x200x10000, .f32⟩
  | .local _ .vmem, ⟨7, _⟩ => ⟨S1x10000x64, .f32⟩
  | .local _ .vmem, ⟨8, _⟩ => ⟨S1x10000x64, .f32⟩
  | .local _ .vmem, ⟨9, _⟩ => ⟨S1x1x64, .f32⟩
  | .local _ .vmem, ⟨10, _⟩ => ⟨S1x1x64, .f32⟩
  | .local _ .vmem, ⟨11, _⟩ => ⟨S1x64x16, .f32⟩
  | .local _ .vmem, ⟨12, _⟩ => ⟨S1x64x16, .f32⟩
  | .local _ .vmem, ⟨13, _⟩ => ⟨S1x200x16, .bf16⟩
  | .local _ .vmem, ⟨14, _⟩ => ⟨S1x200x16, .bf16⟩
  | .local _ .vmem, ⟨15, _⟩ => ⟨S1x200x10000, .f32⟩
  | .local _ .vmem, ⟨16, _⟩ => ⟨S1x200x10000, .f32⟩
  | .local _ .vmem, ⟨17, _⟩ => ⟨S2x10000x16, .bf16⟩
  | .local _ .vmem, ⟨18, _⟩ => ⟨S2x1x16, .f32⟩
  | .local _ .vmem, ⟨19, _⟩ => ⟨S200x16, .f32⟩
  | .local _ .vmem, ⟨20, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 50], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x200x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![50, 2], ![false, false]⟩

def k2_off1 (i : grid2.Coords) : Fin 3 → Nat :=
  let arg1 : BitVec 32 := BitVec.ofNat 32 (i 1).val
  let v3 : Index := Scalar.indexCast arg1
  let c0_2 : Index := 0#32
  let c0_3 : Index := 0#32
  ![v3.toNat, 0, 0]
def k2_cond1 (i : grid2.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_4 : BitVec 32 := 0#32
  let v9 : BitVec 1 := Scalar.cmpi .ne v8 c0_i32_4
  v9

def k2_cond2 (i : grid2.Coords) : BitVec 1 :=
  let arg1 : BitVec 32 := BitVec.ofNat 32 (i 1).val
  let c0_i32_5 : BitVec 32 := 0#32
  let v10 : BitVec 1 := Scalar.cmpi .ne arg1 c0_i32_5
  let v11 : BitVec 32 := Scalar.extui v10
  let c0_i32_6 : BitVec 32 := 0#32
  let v12 : BitVec 1 := Scalar.cmpi .ne v11 c0_i32_6
  v12

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x10000x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S2x1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S200x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  bcast_S64_S1x64_1 : S64.BroadcastsInDim S1x64 (![1] : Fin 1 → Fin S1x64.rank)
  concatenates_S1x64_S1x64_S2x64_d0 : Shape.Concatenates [S1x64, S1x64] S2x64 0
  shapeCasts_S2x64_S2x1x64 : S2x64.ShapeCasts S2x1x64
  bcast_S64x16_S1x64x16_1_2 : S64x16.BroadcastsInDim S1x64x16 (![1, 2] : Fin 2 → Fin S1x64x16.rank)
  concatenates_S1x64x16_S1x64x16_S2x64x16_d0 : Shape.Concatenates [S1x64x16, S1x64x16] S2x64x16 0
  bcast_S16_S1x16_1 : S16.BroadcastsInDim S1x16 (![1] : Fin 1 → Fin S1x16.rank)
  concatenates_S1x16_S1x16_S2x16_d0 : Shape.Concatenates [S1x16, S1x16] S2x16 0
  shapeCasts_S2x16_S2x1x16 : S2x16.ShapeCasts S2x1x16
  inb_S200x128_S200x128_0_0 : ∀ a, (![0, 0] : Fin 2 → Nat) a + S200x128.size a ≤ S200x128.size a
  h_S200x128 : 0 < S200x128.numel
  bitsLt_bf16_f32 : FTy.bits .bf16 < FTy.bits .f32
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x200x64_S1x200x64_0_0_0 : ∀ a, (![0, 0, 0] : Fin 3 → Nat) a + S1x200x64.size a ≤ S2x200x64.size a
  h_S1x200x64 : 0 < S1x200x64.numel
  shapeCasts_S1x200x64_S200x64 : S1x200x64.ShapeCasts S200x64
  shapeCasts_S200x64_S1x200x64 : S200x64.ShapeCasts S1x200x64
  inb_S2x128x64_S1x128x64_1_0_0 : ∀ a, (![1, 0, 0] : Fin 3 → Nat) a + S1x128x64.size a ≤ S2x128x64.size a
  inb_S2x200x64_S1x200x64_1_0_0 : ∀ a, (![1, 0, 0] : Fin 3 → Nat) a + S1x200x64.size a ≤ S2x200x64.size a
  inb_S1x200x10000_S1x200x10000_0_0_0 : ∀ a, (![0, 0, 0] : Fin 3 → Nat) a + S1x200x10000.size a ≤ S1x200x10000.size a
  h_S1x200x10000 : 0 < S1x200x10000.numel
  shapeCasts_S1x200x10000_S200x10000 : S1x200x10000.ShapeCasts S200x10000
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S200x64 : S1x64.Broadcasts S200x64
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  inb_S1x200x16_S1x200x16_0_0_0 : ∀ a, (![0, 0, 0] : Fin 3 → Nat) a + S1x200x16.size a ≤ S1x200x16.size a
  h_S1x200x16 : 0 < S1x200x16.numel
  shapeCasts_S1x200x16_S200x16 : S1x200x16.ShapeCasts S200x16
  shapeCasts_S200x16_S1x200x16 : S200x16.ShapeCasts S1x200x16
  packedbf16_S1x200x16_S1x200x16_0_0_0 : (Rect.unit (s := S1x200x16) ![0, 0, 0] S1x200x16.size inb_S1x200x16_S1x200x16_0_0_0).PackedRows (EltTy.packing .bf16)
  h_S1x10000x16 : 0 < S1x10000x16.numel
  shapeCasts_S1x10000x16_S10000x16 : S1x10000x16.ShapeCasts S10000x16
  inb_S2x1x16_S1x1x16_0_0_0 : ∀ a, (![0, 0, 0] : Fin 3 → Nat) a + S1x1x16.size a ≤ S2x1x16.size a
  h_S1x1x16 : 0 < S1x1x16.numel
  shapeCasts_S1x1x16_S16 : S1x1x16.ShapeCasts S16
  inb_S2x1x16_S1x1x16_1_0_0 : ∀ a, (![1, 0, 0] : Fin 3 → Nat) a + S1x1x16.size a ≤ S2x1x16.size a
  shapeCasts_S16_S1x16 : S16.ShapeCasts S1x16
  broadcasts_S1x16_S200x16 : S1x16.Broadcasts S200x16
  inb_S200x16_S200x16_0_0 : ∀ a, (![0, 0] : Fin 2 → Nat) a + S200x16.size a ≤ S200x16.size a
  h_S200x16 : 0 < S200x16.numel
  shapeCasts_S200x16_S200x16 : S200x16.ShapeCasts S200x16
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  dot_S200x64_S64x16_S200x16_1_0_0_1_n_n_wf : DotDims.WF S200x64 S64x16 S200x16 [1] [0] [0] [1] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128x64.size a ≤ S2x128x64.size a
  hwx0_1 : ∀ i : grid0.Coords, EltTy.bits .f32 = 32 ∨ (Rect.block (s := S2x128x64) S2x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x200x64.size a ≤ S2x10000x64.size a
  hwx0_2 : ∀ i : grid0.Coords, EltTy.bits .f32 = 32 ∨ (Rect.block (s := S2x10000x64) S2x200x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x200x10000.size a ≤ S2x10000x10000.size a
  hwx1_0 : ∀ i : grid1.Coords, EltTy.bits .f32 = 32 ∨ (Rect.block (s := S2x10000x10000) S1x200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x10000x64.size a ≤ S2x10000x64.size a
  hwx1_1 : ∀ i : grid1.Coords, EltTy.bits .f32 = 32 ∨ (Rect.block (s := S2x10000x64) S1x10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S2x1x64.size a
  hwx1_2 : ∀ i : grid1.Coords, EltTy.bits .f32 = 32 ∨ (Rect.block (s := S2x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x16.size a ≤ S2x64x16.size a
  hwx1_3 : ∀ i : grid1.Coords, EltTy.bits .f32 = 32 ∨ (Rect.block (s := S2x64x16) S1x64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x200x16.size a ≤ S2x10000x16.size a
  hwx1_4 : ∀ i : grid1.Coords, EltTy.bits .bf16 = 32 ∨ (Rect.block (s := S2x10000x16) S1x200x16.size (cc1_transform_4 i) (hinb1_4 i)).WholeWords (EltTy.packing .bf16)
  hrank2 : 0 < grid2.rank
  k2_off1_inb : ∀ i : grid2.Coords, ∀ a, (k2_off1 i) a + S1x10000x16.size a ≤ S2x10000x16.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x200x10000.size a ≤ S2x10000x10000.size a
  hwx2_0 : ∀ i : grid2.Coords, EltTy.bits .f32 = 32 ∨ (Rect.block (s := S2x10000x10000) S1x200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x10000x16.size a ≤ S2x10000x16.size a
  hwx2_1 : ∀ i : grid2.Coords, EltTy.bits .bf16 = 32 ∨ (Rect.block (s := S2x10000x16) S2x10000x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x1x16.size a ≤ S2x1x16.size a
  hwx2_2 : ∀ i : grid2.Coords, EltTy.bits .f32 = 32 ∨ (Rect.block (s := S2x1x16) S2x1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x16.size a ≤ S10000x16.size a
  hwx2_3 : ∀ i : grid2.Coords, EltTy.bits .f32 = 32 ∨ (Rect.block (s := S10000x16) S200x16.size (cc2_transform_3 i) (hinb2_3 i)).WholeWords (EltTy.packing .f32)

variable [Facts₀]

def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S2x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S2x200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v14) S1x10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v6) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v9) S1x64x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v15) S1x200x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S1x200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v15) S2x10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v13) S2x1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S200x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond1 i == 1#1) && !(k2_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x10000x10000 : Shape := ⟨3, ![1, 10000, 10000]⟩
abbrev S10000x10000 : Shape := ⟨2, ![10000, 10000]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000x1x16 : Shape := ⟨3, ![10000, 1, 16]⟩
abbrev S10000x2x16 : Shape := ⟨3, ![10000, 2, 16]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S128x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S1x10000x10000, .f32⟩
  | .hbm, ⟨11, _⟩ => ⟨S10000x10000, .f32⟩
  | .hbm, ⟨12, _⟩ => ⟨S10000x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x16, .f32⟩
  | .hbm, ⟨21, _⟩ => ⟨S10000x16, .f32⟩
  | .hbm, ⟨22, _⟩ => ⟨S1x16, .f32⟩
  | .hbm, ⟨23, _⟩ => ⟨S10000x16, .f32⟩
  | .hbm, ⟨24, _⟩ => ⟨S10000x16, .f32⟩
  | .hbm, ⟨25, _⟩ => ⟨S1x10000x10000, .f32⟩
  | .hbm, ⟨26, _⟩ => ⟨S10000x10000, .f32⟩
  | .hbm, ⟨27, _⟩ => ⟨S10000x64, .f32⟩
  | .hbm, ⟨28, _⟩ => ⟨S10000x64, .f32⟩
  | .hbm, ⟨29, _⟩ => ⟨S1x64, .f32⟩
  | .hbm, ⟨30, _⟩ => ⟨S10000x64, .f32⟩
  | .hbm, ⟨31, _⟩ => ⟨S10000x64, .f32⟩
  | .hbm, ⟨32, _⟩ => ⟨S_, .f32⟩
  | .hbm, ⟨33, _⟩ => ⟨S10000x64, .f32⟩
  | .hbm, ⟨34, _⟩ => ⟨S10000x64, .f32⟩
  | .hbm, ⟨35, _⟩ => ⟨S10000x16, .f32⟩
  | .hbm, ⟨36, _⟩ => ⟨S10000x16, .f32⟩
  | .hbm, ⟨37, _⟩ => ⟨S1x16, .f32⟩
  | .hbm, ⟨38, _⟩ => ⟨S10000x16, .f32⟩
  | .hbm, ⟨39, _⟩ => ⟨S10000x16, .f32⟩
  | .hbm, ⟨40, _⟩ => ⟨S10000x1x16, .f32⟩
  | .hbm, ⟨41, _⟩ => ⟨S10000x1x16, .f32⟩
  | .hbm, ⟨42, _⟩ => ⟨S10000x2x16, .f32⟩
  | .hbm, ⟨43, _⟩ => ⟨S_, .f32⟩
  | .hbm, ⟨44, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  slices_S2x10000x10000_S1x10000x10000_1_0_0 : S2x10000x10000.Slices ![1, 0, 0] S1x10000x10000
  bcast_S10000x16_S10000x1x16_0_2 : S10000x16.BroadcastsInDim S10000x1x16 (![0, 2] : Fin 2 → Fin S10000x1x16.rank)
  concatenates_S10000x1x16_S10000x1x16_S10000x2x16_d1 : Shape.Concatenates [S10000x1x16, S10000x1x16] S10000x2x16 1
  reducesTo_S10000x2x16_S10000x16_d1 : S10000x2x16.ReducesTo [1] S10000x16
  h_S_ : 0 < S_.numel
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.R0.lean ====
import proofs.«178646_g43207370998080_cont_sun_c4_156_2_alg».proof.Proof.Gen.Kernel.Launch
import proofs.«178646_g43207370998080_cont_sun_c4_156_2_alg».proof.Proof.Gen.Kernel.Skeleton
import proofs.«178646_g43207370998080_cont_sun_c4_156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the body's half of the frame

Stated at a parameter `V`, the TensorCore's buffer contents when the region is entered, and at any float
interpretation `F`.
-/

-- deciding membership of an index in a rectangle of a block's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved, so the block of the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of `x`. -/
abbrev r0_x : Rect S200x128 := Rect.unit (s := S200x128) ![0, 0] S200x128.size inb_S200x128_S200x128_0_0
/-- The two views' weight matrices in the stacked block. -/
abbrev r0_w0 : Rect S2x128x64 := Rect.unit (s := S2x128x64) ![0, 0, 0] S1x128x64.size inb_S2x128x64_S1x128x64_0_0_0
abbrev r0_w1 : Rect S2x128x64 := Rect.unit (s := S2x128x64) ![1, 0, 0] S1x128x64.size inb_S2x128x64_S1x128x64_1_0_0
/-- The two views' halves of the output block. -/
abbrev r0_out0 : Rect S2x200x64 := Rect.unit (s := S2x200x64) ![0, 0, 0] S1x200x64.size inb_S2x200x64_S1x200x64_0_0_0
abbrev r0_out1 : Rect S2x200x64 := Rect.unit (s := S2x200x64) ![1, 0, 0] S1x200x64.size inb_S2x200x64_S1x200x64_1_0_0

/-! ## What the body leaves in the output window's buffer -/

/-- Window 2's staging buffer after the body, from the input windows' blocks: view `v`'s half holds
    `x_blk · W1_v`; the two stores as pieces, the last one first. -/
def out0_2 (x0 : Vec F S200x128 .f32) (x1 : Vec F S2x128x64 .f32) : Vec F S2x200x64 .f32 :=
  View.canon [⟨r0_out1, k0_pay3 (View.ld x0 r0_x) (View.ld x1 r0_w1)⟩,
    ⟨r0_out0, k0_pay2 (View.ld x0 r0_x) (View.ld x1 r0_w0)⟩]

/-- The two halves tile the buffer, so they cover it. -/
theorem cover0_2 (p0 : Vec F S1x200x64 .f32) (p1 : Vec F S1x200x64 .f32) (y : S2x200x64.Idx) :
    ∃ pc ∈ ([⟨r0_out1, p0⟩, ⟨r0_out0, p1⟩] : List (View.Piece (Elt F) S2x200x64 .f32)), y ∈ pc.1.set :=
  View.cover_of_tiled [⟨r0_out1, p0⟩, ⟨r0_out0, p1⟩] S1x200x64.size (by rfl) y

/-! ## The body's triple -/

set_option maxHeartbeats 1000000 in
/-- The body on whole staging memrefs, the inputs' at read contents `x0`, `x1` and the output's at anything (the
    body reads it, and drops what it read), runs to the continuation holding the inputs' as they were and the
    output's at `out0_2` of the inputs'. -/
theorem sound_kernel0 (c : Dev nD) (E : Set ℕ) (i : grid0.Coords) (arg1 : Memref sig .tc .vmem S200x128 .f32) (harg1 : arg1.IsWhole) (arg2 : Memref sig .tc .vmem S2x128x64 .f32) (harg2 : arg2.IsWhole) (arg3 : Memref sig .tc .vmem S2x200x64 .f32) (harg3 : arg3.IsWhole)
    (x0 : Vec F S200x128 .f32) (x1 : Vec F S2x128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s_body i arg1 harg1 arg2 harg2 arg3 harg3) K := by
  simp only [cc0__s_body_eq_skeleton]; unfold cc0__s_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«178646_g43207370998080_cont_sun_c4_156_2_alg».proof.Proof.Gen.Kernel.Launch
import proofs.«178646_g43207370998080_cont_sun_c4_156_2_alg».proof.Proof.Gen.Kernel.Skeleton
import proofs.«178646_g43207370998080_cont_sun_c4_156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body's half of the frame

Stated at a parameter `V`, the TensorCore's buffer contents when the region is entered, and at any float
interpretation `F`.
-/

-- deciding membership of an index in a rectangle of a block's extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each window's block is accessed whole. -/
abbrev r1_0 : Rect S1x200x10000 := Rect.unit (s := S1x200x10000) ![0, 0, 0] S1x200x10000.size inb_S1x200x10000_S1x200x10000_0_0_0
abbrev r1_1 : Rect S1x10000x64 := Rect.unit (s := S1x10000x64) ![0, 0, 0] S1x10000x64.size inb_S1x10000x64_S1x10000x64_0_0_0
abbrev r1_2 : Rect S1x1x64 := Rect.unit (s := S1x1x64) ![0, 0, 0] S1x1x64.size inb_S1x1x64_S1x1x64_0_0_0
abbrev r1_3 : Rect S1x64x16 := Rect.unit (s := S1x64x16) ![0, 0, 0] S1x64x16.size inb_S1x64x16_S1x64x16_0_0_0
abbrev r1_out : Rect S1x200x16 := Rect.unit (s := S1x200x16) ![0, 0, 0] S1x200x16.size inb_S1x200x16_S1x200x16_0_0_0

/-! ## What the body leaves in the output window's buffer -/

/-- Window 4's staging buffer after the body, from the input windows' blocks:
    `bf16 (relu (adj_blk · s_v + b1_v) · W2_v)`, its one store as a piece. -/
def out1_4 (x0 : Vec F S1x200x10000 .f32) (x1 : Vec F S1x10000x64 .f32) (x2 : Vec F S1x1x64 .f32) (x3 : Vec F S1x64x16 .f32) : Vec F S1x200x16 .bf16 :=
  View.canon [⟨r1_out, k1_pay1 (View.ld x0 r1_0) (View.ld x1 r1_1) (View.ld x2 r1_2) (View.ld x3 r1_3)⟩]

/-- The one store is of the whole buffer, so it covers it. -/
theorem cover1_4 (p0 : Vec F S1x200x16 .bf16) (y : S1x200x16.Idx) :
    ∃ pc ∈ ([⟨r1_out, p0⟩] : List (View.Piece (Elt F) S1x200x16 .bf16)), y ∈ pc.1.set :=
  View.cover_of_tiled [⟨r1_out, p0⟩] S1x200x16.size (by rfl) y

/-! ## The body's triple -/

set_option maxHeartbeats 1000000 in
/-- The body on whole staging memrefs, the inputs' at read contents `x0` … `x3` and the output's at anything (the
    body reads it, and drops what it read), runs to the continuation holding the inputs' as they were and the
    output's at `out1_4` of the inputs'. -/
theorem sound_kernel1 (c : Dev nD) (E : Set ℕ) (i : grid1.Coords) (arg2 : Memref sig .tc .vmem S1x200x10000 .f32) (harg2 : arg2.IsWhole) (arg3 : Memref sig .tc .vmem S1x10000x64 .f32) (harg3 : arg3.IsWhole) (arg4 : Memref sig .tc .vmem S1x1x64 .f32) (harg4 : arg4.IsWhole) (arg5 : Memref sig .tc .vmem S1x64x16 .f32) (harg5 : arg5.IsWhole) (arg6 : Memref sig .tc .vmem S1x200x16 .bf16) (harg6 : arg6.IsWhole)
    (x0 : Vec F S1x200x10000 .f32) (x1 : Vec F S1x10000x64 .f32) (x2 : Vec F S1x1x64 .f32) (x3 : Vec F S1x64x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__layer1_body i arg2 harg2 arg3 harg3 arg4 harg4 arg5 harg5 arg6 harg6) K := by
  simp only [cc1__layer1_body_eq_skeleton]; unfold cc1__layer1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«178646_g43207370998080_cont_sun_c4_156_2_alg».proof.Proof.Gen.Kernel.Launch
import proofs.«178646_g43207370998080_cont_sun_c4_156_2_alg».proof.Proof.Gen.Kernel.Skeleton
import proofs.«178646_g43207370998080_cont_sun_c4_156_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third kernel call (grid 50 × 2): the second graph-convolution layer, summed over the two views

At the point (i, v) the body multiplies the i-th row block of view v's adjacency with view v's hidden
features. At v = 0 it stores that product plus the sum of the two biases into the output block; at v = 1 it
adds the product to what the output block holds. The output block's buffer is carried from (i, 0) to (i, 1)
and written back after (i, 1) only. Everything here is stated at any float model `F` and at a parameter
`V`, the buffer contents when the call is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

abbrev r2_0 : Rect S1x200x10000 := Rect.unit (s := S1x200x10000) ![0, 0, 0] S1x200x10000.size inb_S1x200x10000_S1x200x10000_0_0_0
abbrev r2_1 (off : Fin 3 → Nat) (hoff : ∀ a, off a + S1x10000x16.size a ≤ S2x10000x16.size a) : Rect S2x10000x16 :=
  Rect.unit (s := S2x10000x16) off S1x10000x16.size hoff
abbrev r2_b0 : Rect S2x1x16 := Rect.unit (s := S2x1x16) ![0, 0, 0] S1x1x16.size inb_S2x1x16_S1x1x16_0_0_0
abbrev r2_b1 : Rect S2x1x16 := Rect.unit (s := S2x1x16) ![1, 0, 0] S1x1x16.size inb_S2x1x16_S1x1x16_1_0_0
abbrev r2_o : Rect S200x16 := Rect.unit (s := S200x16) ![0, 0] S200x16.size inb_S200x16_S200x16_0_0

/-! ## What the body leaves in the output block's buffer -/

/-- At v = 0: the one store, of the product plus the two biases. -/
def out2_A (x0 : Vec F S1x200x10000 .f32) (x1 : Vec F S2x10000x16 .bf16) (x2 : Vec F S2x1x16 .f32)
    (off : Fin 3 → Nat) (hoff : ∀ a, off a + S1x10000x16.size a ≤ S2x10000x16.size a) : Vec F S200x16 .f32 :=
  View.canon [⟨r2_o, k2_pay2 (View.ld x0 r2_0) (View.ld x1 (r2_1 off hoff)) (View.ld x2 r2_b0) (View.ld x2 r2_b1)⟩]

/-- At v = 1: the one store, of what the buffer held plus the product. -/
def out2_B (x0 : Vec F S1x200x10000 .f32) (x1 : Vec F S2x10000x16 .bf16)
    (off : Fin 3 → Nat) (hoff : ∀ a, off a + S1x10000x16.size a ≤ S2x10000x16.size a) (prev : Vec F S200x16 .f32) : Vec F S200x16 .f32 :=
  View.canon [⟨r2_o, k2_pay3 (View.ld x0 r2_0) (View.ld x1 (r2_1 off hoff)) (View.ld prev r2_o)⟩]

/-- The store covers the buffer. -/
theorem cover2_3 (p0 : Vec F S200x16 .f32) (y : S200x16.Idx) :
    ∃ pc ∈ ([⟨r2_o, p0⟩] : List (View.Piece (Elt F) S200x16 .f32)), y ∈ pc.1.set :=
  View.cover_of_tiled [⟨r2_o, p0⟩] S200x16.size (by rfl) y

/-! ## The body's triple, per case -/

set_option maxHeartbeats 1000000 in
/-- The body at a point with v = 0: the inputs' memrefs at read contents, the output's at anything. -/
theorem sound_kernel2_A (c : Dev nD) (E : Set ℕ) (i : grid2.Coords) (h1 : k2_cond1 i = 1#1) (h2 : ¬ k2_cond2 i = 1#1)
    (arg2 : Memref sig .tc .vmem S1x200x10000 .f32) (harg2 : arg2.IsWhole) (arg3 : Memref sig .tc .vmem S2x10000x16 .bf16) (harg3 : arg3.IsWhole)
    (arg4 : Memref sig .tc .vmem S2x1x16 .f32) (harg4 : arg4.IsWhole) (arg5 : Memref sig .tc .vmem S200x16 .f32) (harg5 : arg5.IsWhole)
    (x0 : Vec F S1x200x10000 .f32) (x1 : Vec F S2x10000x16 .bf16) (x2 : Vec F S2x1x16 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_A x0 x1 x2 (k2_off1 i) (k2_off1_inb i))) -∗ K ⟨⟩))
      ⊢ wp frame (wpE (defs₀ (F := F)) Variants.none c none) E (cc2__layer2_body i arg2 harg2 arg3 harg3 arg4 harg4 arg5 harg5) K := by
  simp only [cc2__layer2_body_eq_skeleton]; unfold cc2__layer2_body_skel
  simp only [dif_pos h1, dif_neg h2]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

set_option maxHeartbeats 1000000 in
/-- The body at a point with v = 1: the inputs' memrefs at read contents, the output's at read contents `prev`. -/
theorem sound_kernel2_B (c : Dev nD) (E : Set ℕ) (i : grid2.Coords) (h1 : ¬ k2_cond1 i = 1#1) (h2 : k2_cond2 i = 1#1)
    (arg2 : Memref sig .tc .vmem S1x200x10000 .f32) (harg2 : arg2.IsWhole) (arg3 : Memref sig .tc .vmem S2x10000x16 .bf16) (harg3 : arg3.IsWhole)
    (arg4 : Memref sig .tc .vmem S2x1x16 .f32) (harg4 : arg4.IsWhole) (arg5 : Memref sig .tc .vmem S200x16 .f32) (harg5 : arg5.IsWhole)
    (x0 : Vec F S1x200x10000 .f32) (x1 : Vec F S2x10000x16 .bf16) (x2 : Vec F S2x1x16 .f32) (prev : Vec F S200x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare prev
        ∗ (iprop(owns (c : Thread nD τ) arg2 fullShare x0 ∗ owns (c : Thread nD τ) arg3 fullShare x1 ∗ owns (c : Thread nD τ) arg4 fullShare x2
            ∗ owns (c : Thread nD τ) arg5 fullShare (out2_B x0 x1 (k2_off1 i) (k2_off1_inb i) prev)) -∗ K ⟨⟩))
      ⊢ wp frame (wpE (defs₀ (F := F)) Variants.none c none) E (cc2__layer2_body i arg2 harg2 arg3 harg3 arg4 harg4 arg5 harg5) K := by
  simp only [cc2__layer2_body_eq_skeleton]; unfold cc2__layer2_body_skel
  simp only [dif_neg h1, dif_pos h2]
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The conditions and the idle table, in closed form -/

/-- The first condition holds exactly at the points with v = 0, -/
theorem cond2_1 : ∀ t : Fin cfg2.N, k2_cond1 (grid2.coords t) = 1#1 ↔ t.val % 2 = 0 :=
  (by decide +kernel : ∀ t : Fin grid2.N, k2_cond1 (grid2.coords t) = 1#1 ↔ t.val % 2 = 0)
/-- the second exactly at those with v = 1. -/
theorem cond2_2 : ∀ t : Fin cfg2.N, k2_cond2 (grid2.coords t) = 1#1 ↔ t.val % 2 = 1 :=
  (by decide +kernel : ∀ t : Fin grid2.N, k2_cond2 (grid2.coords t) = 1#1 ↔ t.val % 2 = 1)

/-- One of the two conditions holds at every setting of the coordinates: the output is stored at every point. -/
theorem live2_3 (i : grid2.Coords) : cfg2.idle 3 i = false := by
  show (!(k2_cond1 i == 1#1) && !(k2_cond2 i == 1#1)) = false
  unfold k2_cond1 k2_cond2
  generalize i 1 = n
  revert n
  decide

/-! ## The inputs' buffers at a point -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- What a point with v = 0 leaves in the output block's buffer, from the windows' blocks there. -/
def o2_A (c : Dev nD) (t : Fin cfg2.N) : Vec F S200x16 .f32 :=
  out2_A (iblk2 V c 0 t) (iblk2 V c 1 t) (iblk2 V c 2 t) (k2_off1 (grid2.coords t)) (k2_off1_inb (grid2.coords t))

/-- The proof data: the arrays as the call finds them; after the body each input's buffer at its block, the output's
    at the v = 0 contents at an even point and, at an odd point, at the v = 1 contents over what the point before
    left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ =>
      if t.val % 2 = 0 then o2_A V c t
      else out2_B (iblk2 V c 0 t) (iblk2 V c 1 t) (k2_off1 (grid2.coords t)) (k2_off1_inb (grid2.coords t))
        (o2_A V c ⟨t.val - 1, Nat.lt_of_le_of_lt (Nat.sub_le _ _) t.isLt⟩)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t =
    if t.val % 2 = 0 then o2_A V c t
    else out2_B (iblk2 V c 0 t) (iblk2 V c 1 t) (k2_off1 (grid2.coords t)) (k2_off1_inb (grid2.coords t))
      (o2_A V c ⟨t.val - 1, Nat.lt_of_le_of_lt (Nat.sub_le _ _) t.isLt⟩) := by dsimp only [dat2]
theorem after2_3_even (c : Dev nD) (t : Fin cfg2.N) (h : t.val % 2 = 0) : (dat2 V c).after 3 t = o2_A V c t := by
  rw [after2_3, if_pos h]
theorem after2_3_odd (c : Dev nD) (t : Fin cfg2.N) (h : t.val % 2 = 1) : (dat2 V c).after 3 t =
    out2_B (iblk2 V c 0 t) (iblk2 V c 1 t) (k2_off1 (grid2.coords t)) (k2_off1_inb (grid2.coords t))
      (o2_A V c ⟨t.val - 1, Nat.lt_of_le_of_lt (Nat.sub_le _ _) t.isLt⟩) := by
  rw [after2_3, if_neg (by omega)]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a point with v = 1 the output block's buffer holds what the point before left: the point is not the first, the
    buffer was not written back between, the window is stored at every point and is not cut. -/
theorem before2_3_odd (c : Dev nD) (t : Fin cfg2.N) (h : t.val % 2 = 1) (d) :
    (dat2 V c).before 3 t d = o2_A V c ⟨t.val - 1, Nat.lt_of_le_of_lt (Nat.sub_le _ _) t.isLt⟩ := by
  rw [Dat.before_out_kept _ 3 rfl t (by omega) (Bool.eq_false_iff.mpr fun hf => by have := (flush2_3 _).mp hf; dsimp only at this; omega)
    live2_3 (fun _ _ => rfl)]
  exact after2_3_even V c _ (by dsimp only; omega)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' memrefs hold their blocks; by the parity of the point one of the two cases
    applies, and at an odd point the output's memref holds what the point before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2]
  rcases Nat.mod_two_eq_zero_or_one t.val with h | h
  · rw [after2_3_even V c t h]
    unfold o2_A
    iintro ⟨HΦ, Ho, ⟨%d0, H0⟩, ⟨%d1, H1⟩, ⟨%d2, H2⟩, ⟨%d3, H3⟩⟩
    iapply (sound_kernel2_A c Set.univ (grid2.coords t) ((cond2_1 t).mpr h) (fun hc => by have := (cond2_2 t).mp hc; omega)
      _ _ _ _ _ _ _ _ (iblk2 V c 0 t) (iblk2 V c 1 t) (iblk2 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [after2_3_odd V c t h]
    simp only [before2_3_odd V c t h]
    iintro ⟨HΦ, Ho, ⟨%d0, H0⟩, ⟨%d1, H1⟩, ⟨%d2, H2⟩, ⟨%d3, H3⟩⟩
    iapply (sound_kernel2_B c Set.univ (grid2.coords t) (fun hc => by have := (cond2_1 t).mp hc; omega) ((cond2_2 t).mpr h)
      _ _ _ _ _ _ _ _ (iblk2 V c 0 t) (iblk2 V c 1 t) (iblk2 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point: the output window is stored at every point (`live2_3`), so what
    the body returns of it is its `after`. -/
theorem body_obligation2 (c : Dev nD) : BodyObligation (dat2 (F := F) V c) (defs₀ (F := F)) Variants.none () Set.univ := fun t => by
  rw [bigSep_W2, bigSep_W2]
  have hl : cfg2.idle 3 (cfg2.grid.coords t) = false := live2_3 _
  rw [hl]
  exact sound_body2 V c t

end Cert.Kernel.Hand

end
-- ==== Proof.K.Run.lean ====
/-
  The whole program's run, from the three regions' halves.

  The TensorCore's unscoped buffers are followed through @main: at launch they hold the launch memory; the host
  operations that stack the two views' weights and biases rewrite their own result buffers; each kernel region then
  leaves its windows' arrays at what its write-backs fold to and every other buffer as it found it. Each region is
  entered from the thread state "every unscoped buffer at the contents so far, the generator register at some state,
  nothing owed" and leaves it at the next contents; the launch theorem for a list of such segments then says every
  weakly fair execution ends, without a fault, in a memory whose unscoped buffers hold the last contents. The
  argument arrays are read back through the fold to the launch memory, and the result array is what region 2's
  write-backs leave.
-/
import proofs.«178646_g43207370998080_cont_sun_c4_156_2_alg».proof.Proof.K.R0
import proofs.«178646_g43207370998080_cont_sun_c4_156_2_alg».proof.Proof.K.R1
import proofs.«178646_g43207370998080_cont_sun_c4_156_2_alg».proof.Proof.K.R2
import proofs.«178646_g43207370998080_cont_sun_c4_156_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m ((c : Dev nD), b)
/-- After the host operations (region 0's entry). -/
abbrev B1 : Dev nD → Valuation τ sig (Elt F) := fun c => StableHlo.after hostOps0 (B0 m c)
/-- The same read at the TensorCore's references. -/
abbrev U1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- At region 1's exit. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-- At region 2's exit. -/
def B4 (c : Dev nD) : Valuation τ sig (Elt F) :=
  Pipeline.withArrays spec2 c (B3 m c) fun w => (dat2 (U3 m) c).arrAt w cfg2.N
theorem B4_arr (c : Dev nD) (w : Fin cfg2.W) :
    B4 m c (Proc.devRef .tc (Pipeline.arrRef spec2 w)) = (dat2 (U3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev U4 : (c : Dev nD) → (b : Ref sig .tc) → Buf (Elt F) ((c : Thread nD τ).loc b) := fun c b => B4 m c b
theorem hF2 (c : Dev nD) (w : Fin cfg2.W) : (dat2 (U3 m) c).arrAt w cfg2.N = U4 m c (Pipeline.arrRef spec2 w) :=
  (B4_arr m c w).symm
theorem hrest2 (c : Dev nD) : ∀ b, b ∉ Finset.univ.image (Pipeline.arrRef spec2) → U4 m c b = U3 m c b :=
  fun b hb => B4_of_ne m c b fun w e => hb (Finset.mem_image.mpr ⟨w, Finset.mem_univ _, e⟩)

/-! ## A buffer no host operation writes and no region has as a window's array ends as launched -/

/-- The host operations write only their own results. -/
theorem B1_of (c : Dev nD) (r : Ref sig .tc) (h : r ∉ hostOps0_W) : B1 m c (Proc.devRef .tc r) = m ((c : Thread nD τ).loc r) :=
  (StableHlo.after_of_writes_sub hostOps0 _ hostOps0_writes h).trans rfl

/-- An input window's array is as the region found it. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (U1 m) c).arrAt_in w hw _).trans (A_eq0 (U1 m) c w))
theorem B3_in (c : Dev nD) (w : Fin cfg1.W) (hw : (cfg1.win w).isOut = false) :
    B3 m c (Proc.devRef .tc (Pipeline.arrRef spec1 w)) = B2 m c (Proc.devRef .tc (Pipeline.arrRef spec1 w)) :=
  (B3_arr m c w).trans (((dat1 (U2 m) c).arrAt_in w hw _).trans (A_eq1 (U2 m) c w))
theorem B4_in (c : Dev nD) (w : Fin cfg2.W) (hw : (cfg2.win w).isOut = false) :
    B4 m c (Proc.devRef .tc (Pipeline.arrRef spec2 w)) = B3 m c (Proc.devRef .tc (Pipeline.arrRef spec2 w)) :=
  (B4_arr m c w).trans (((dat2 (U3 m) c).arrAt_in w hw _).trans (A_eq2 (U3 m) c w))

theorem B4_main_arg0 (c : Dev nD) : B4 m c (Proc.devRef .tc main_arg0) = m ((c : Thread nD τ).loc main_arg0) :=
  (B4_of_ne m c main_arg0 (by decide)).trans <| (B3_of_ne m c main_arg0 (by decide)).trans <|
    (B2_in m c 0 rfl).trans (B1_of m c main_arg0 (by decide))
theorem B4_main_arg1 (c : Dev nD) : B4 m c (Proc.devRef .tc main_arg1) = m ((c : Thread nD τ).loc main_arg1) :=
  (B4_in m c 0 rfl).trans <| (B3_in m c 0 rfl).trans <|
    (B2_of_ne m c main_arg1 (by decide)).trans (B1_of m c main_arg1 (by decide))
theorem B4_main_arg2 (c : Dev nD) : B4 m c (Proc.devRef .tc main_arg2) = m ((c : Thread nD τ).loc main_arg2) :=
  (B4_of_ne m c main_arg2 (by decide)).trans <| (B3_of_ne m c main_arg2 (by decide)).trans <|
    (B2_of_ne m c main_arg2 (by decide)).trans (B1_of m c main_arg2 (by decide))
theorem B4_main_arg3 (c : Dev nD) : B4 m c (Proc.devRef .tc main_arg3) = m ((c : Thread nD τ).loc main_arg3) :=
  (B4_of_ne m c main_arg3 (by decide)).trans <| (B3_of_ne m c main_arg3 (by decide)).trans <|
    (B2_of_ne m c main_arg3 (by decide)).trans (B1_of m c main_arg3 (by decide))
theorem B4_main_arg4 (c : Dev nD) : B4 m c (Proc.devRef .tc main_arg4) = m ((c : Thread nD τ).loc main_arg4) :=
  (B4_of_ne m c main_arg4 (by decide)).trans <| (B3_of_ne m c main_arg4 (by decide)).trans <|
    (B2_of_ne m c main_arg4 (by decide)).trans (B1_of m c main_arg4 (by decide))
theorem B4_main_arg5 (c : Dev nD) : B4 m c (Proc.devRef .tc main_arg5) = m ((c : Thread nD τ).loc main_arg5) :=
  (B4_of_ne m c main_arg5 (by decide)).trans <| (B3_of_ne m c main_arg5 (by decide)).trans <|
    (B2_of_ne m c main_arg5 (by decide)).trans (B1_of m c main_arg5 (by decide))
theorem B4_main_arg6 (c : Dev nD) : B4 m c (Proc.devRef .tc main_arg6) = m ((c : Thread nD τ).loc main_arg6) :=
  (B4_of_ne m c main_arg6 (by decide)).trans <| (B3_of_ne m c main_arg6 (by decide)).trans <|
    (B2_of_ne m c main_arg6 (by decide)).trans (B1_of m c main_arg6 (by decide))
theorem B4_main_arg7 (c : Dev nD) : B4 m c (Proc.devRef .tc main_arg7) = m ((c : Thread nD τ).loc main_arg7) :=
  (B4_of_ne m c main_arg7 (by decide)).trans <| (B3_of_ne m c main_arg7 (by decide)).trans <|
    (B2_of_ne m c main_arg7 (by decide)).trans (B1_of m c main_arg7 (by decide))
theorem B4_main_arg8 (c : Dev nD) : B4 m c (Proc.devRef .tc main_arg8) = m ((c : Thread nD τ).loc main_arg8) :=
  (B4_of_ne m c main_arg8 (by decide)).trans <| (B3_of_ne m c main_arg8 (by decide)).trans <|
    (B2_of_ne m c main_arg8 (by decide)).trans (B1_of m c main_arg8 (by decide))
theorem B4_main_arg9 (c : Dev nD) : B4 m c (Proc.devRef .tc main_arg9) = m ((c : Thread nD τ).loc main_arg9) :=
  (B4_of_ne m c main_arg9 (by decide)).trans <| (B3_of_ne m c main_arg9 (by decide)).trans <|
    (B2_of_ne m c main_arg9 (by decide)).trans (B1_of m c main_arg9 (by decide))

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U2 m) c
  | ⟨2, _⟩ => fun c => dat2 (U3 m) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B4 m c) ∗ ∃ r, prngReg c r)

/-! ## The regions as segments -/

set_option backward.isDefEq.respectTransparency.types false in
def reg0 : Pipeline.RegionSeg (pcfgs (F := F)) adm' (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lz lvz 1 fun _ _ => rfl
  pre c := iprop(StableHlo.held (c : Thread nD τ) (Pipeline.ucRefs τ sig) (B2 m c) ∗ Rr c)
  post c := iprop(StableHlo.held (c : Thread nD τ) (Pipeline.ucRefs τ sig) (B3 m c) ∗ Rr c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm' (pdats m) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ Lz lvz 2 fun _ _ => rfl
  pre c := iprop(StableHlo.held (c : Thread nD τ) (Pipeline.ucRefs τ sig) (B3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm' (pdats m) () defs₀ 𝒱₀ Lz lvz) :=
  [ .host (hseg hostOps0 hostOps0_sub hostOps0_fresh (B0 m)),
    .region (reg0 m),
    .region (reg1 m),
    .region (reg2 m) ]
theorem main_run (c : Dev nD) : main (F := F) c = Pipeline.Seg.run (segsH m) := (main_chain c).trans (by chain_rfl)

set_option backward.isDefEq.respectTransparency.types false in
/-- Every weakly fair execution of @main from memory `m` with zero counters terminates, nothing faulting, and every
    final memory holds each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm' (pdats m) () cellOf_inj emb₁ defs₀ 𝒱₀ Lz lvz m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c),
     (h c _ (mem_uc main_arg8 (by decide))).trans (B4_main_arg8 m c),
     (h c _ (mem_uc main_arg9 (by decide))).trans (B4_main_arg9 m c)⟩) (run_all m ρ)

end Cert.Kernel.Hand

end
-- ==== Proof.KI.R0.lean ====
import proofs.«178646_g43207370998080_cont_sun_c4_156_2_alg».proof.Proof.Gen.KernelIdeal.Launch
import proofs.«178646_g43207370998080_cont_sun_c4_156_2_alg».proof.Proof.Gen.KernelIdeal.Skeleton
import proofs.«178646_g43207370998080_cont_sun_c4_156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the body's half of the frame

Stated at a parameter `V`, the TensorCore's buffer contents when the region is entered, and at any float
interpretation `F`.
-/

-- deciding membership of an index in a rectangle of a block's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved, so the block of the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of `x`. -/
abbrev r0_x : Rect S200x128 := Rect.unit (s := S200x128) ![0, 0] S200x128.size inb_S200x128_S200x128_0_0
/-- The two views' weight matrices in the stacked block. -/
abbrev r0_w0 : Rect S2x128x64 := Rect.unit (s := S2x128x64) ![0, 0, 0] S1x128x64.size inb_S2x128x64_S1x128x64_0_0_0
abbrev r0_w1 : Rect S2x128x64 := Rect.unit (s := S2x128x64) ![1, 0, 0] S1x128x64.size inb_S2x128x64_S1x128x64_1_0_0
/-- The two views' halves of the output block. -/
abbrev r0_out0 : Rect S2x200x64 := Rect.unit (s := S2x200x64) ![0, 0, 0] S1x200x64.size inb_S2x200x64_S1x200x64_0_0_0
abbrev r0_out1 : Rect S2x200x64 := Rect.unit (s := S2x200x64) ![1, 0, 0] S1x200x64.size inb_S2x200x64_S1x200x64_1_0_0

/-! ## What the body leaves in the output window's buffer -/

/-- Window 2's staging buffer after the body, from the input windows' blocks: view `v`'s half holds
    `x_blk · W1_v`; the two stores as pieces, the last one first. -/
def out0_2 (x0 : Vec F S200x128 .f32) (x1 : Vec F S2x128x64 .f32) : Vec F S2x200x64 .f32 :=
  View.canon [⟨r0_out1, k0_pay3 (View.ld x0 r0_x) (View.ld x1 r0_w1)⟩,
    ⟨r0_out0, k0_pay2 (View.ld x0 r0_x) (View.ld x1 r0_w0)⟩]

/-- The two halves tile the buffer, so they cover it. -/
theorem cover0_2 (p0 : Vec F S1x200x64 .f32) (p1 : Vec F S1x200x64 .f32) (y : S2x200x64.Idx) :
    ∃ pc ∈ ([⟨r0_out1, p0⟩, ⟨r0_out0, p1⟩] : List (View.Piece (Elt F) S2x200x64 .f32)), y ∈ pc.1.set :=
  View.cover_of_tiled [⟨r0_out1, p0⟩, ⟨r0_out0, p1⟩] S1x200x64.size (by rfl) y

/-! ## The body's triple -/

set_option maxHeartbeats 1000000 in
/-- The body on whole staging memrefs, the inputs' at read contents `x0`, `x1` and the output's at anything (the
    body reads it, and drops what it read), runs to the continuation holding the inputs' as they were and the
    output's at `out0_2` of the inputs'. -/
theorem sound_kernel0 (c : Dev nD) (E : Set ℕ) (i : grid0.Coords) (arg1 : Memref sig .tc .vmem S200x128 .f32) (harg1 : arg1.IsWhole) (arg2 : Memref sig .tc .vmem S2x128x64 .f32) (harg2 : arg2.IsWhole) (arg3 : Memref sig .tc .vmem S2x200x64 .f32) (harg3 : arg3.IsWhole)
    (x0 : Vec F S200x128 .f32) (x1 : Vec F S2x128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s_body i arg1 harg1 arg2 harg2 arg3 harg3) K := by
  simp only [cc0__s_body_eq_skeleton]; unfold cc0__s_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«178646_g43207370998080_cont_sun_c4_156_2_alg».proof.Proof.Gen.KernelIdeal.Launch
import proofs.«178646_g43207370998080_cont_sun_c4_156_2_alg».proof.Proof.Gen.KernelIdeal.Skeleton
import proofs.«178646_g43207370998080_cont_sun_c4_156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body's half of the frame

Stated at a parameter `V`, the TensorCore's buffer contents when the region is entered, and at any float
interpretation `F`.
-/

-- deciding membership of an index in a rectangle of a block's extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each window's block is accessed whole. -/
abbrev r1_0 : Rect S1x200x10000 := Rect.unit (s := S1x200x10000) ![0, 0, 0] S1x200x10000.size inb_S1x200x10000_S1x200x10000_0_0_0
abbrev r1_1 : Rect S1x10000x64 := Rect.unit (s := S1x10000x64) ![0, 0, 0] S1x10000x64.size inb_S1x10000x64_S1x10000x64_0_0_0
abbrev r1_2 : Rect S1x1x64 := Rect.unit (s := S1x1x64) ![0, 0, 0] S1x1x64.size inb_S1x1x64_S1x1x64_0_0_0
abbrev r1_3 : Rect S1x64x16 := Rect.unit (s := S1x64x16) ![0, 0, 0] S1x64x16.size inb_S1x64x16_S1x64x16_0_0_0
abbrev r1_out : Rect S1x200x16 := Rect.unit (s := S1x200x16) ![0, 0, 0] S1x200x16.size inb_S1x200x16_S1x200x16_0_0_0

/-! ## What the body leaves in the output window's buffer -/

/-- Window 4's staging buffer after the body, from the input windows' blocks:
    `bf16 (relu (adj_blk · s_v + b1_v) · W2_v)`, its one store as a piece. -/
def out1_4 (x0 : Vec F S1x200x10000 .f32) (x1 : Vec F S1x10000x64 .f32) (x2 : Vec F S1x1x64 .f32) (x3 : Vec F S1x64x16 .f32) : Vec F S1x200x16 .bf16 :=
  View.canon [⟨r1_out, k1_pay1 (View.ld x0 r1_0) (View.ld x1 r1_1) (View.ld x2 r1_2) (View.ld x3 r1_3)⟩]

/-- The one store is of the whole buffer, so it covers it. -/
theorem cover1_4 (p0 : Vec F S1x200x16 .bf16) (y : S1x200x16.Idx) :
    ∃ pc ∈ ([⟨r1_out, p0⟩] : List (View.Piece (Elt F) S1x200x16 .bf16)), y ∈ pc.1.set :=
  View.cover_of_tiled [⟨r1_out, p0⟩] S1x200x16.size (by rfl) y

/-! ## The body's triple -/

set_option maxHeartbeats 1000000 in
/-- The body on whole staging memrefs, the inputs' at read contents `x0` … `x3` and the output's at anything (the
    body reads it, and drops what it read), runs to the continuation holding the inputs' as they were and the
    output's at `out1_4` of the inputs'. -/
theorem sound_kernel1 (c : Dev nD) (E : Set ℕ) (i : grid1.Coords) (arg2 : Memref sig .tc .vmem S1x200x10000 .f32) (harg2 : arg2.IsWhole) (arg3 : Memref sig .tc .vmem S1x10000x64 .f32) (harg3 : arg3.IsWhole) (arg4 : Memref sig .tc .vmem S1x1x64 .f32) (harg4 : arg4.IsWhole) (arg5 : Memref sig .tc .vmem S1x64x16 .f32) (harg5 : arg5.IsWhole) (arg6 : Memref sig .tc .vmem S1x200x16 .bf16) (harg6 : arg6.IsWhole)
    (x0 : Vec F S1x200x10000 .f32) (x1 : Vec F S1x10000x64 .f32) (x2 : Vec F S1x1x64 .f32) (x3 : Vec F S1x64x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__layer1_body i arg2 harg2 arg3 harg3 arg4 harg4 arg5 harg5 arg6 harg6) K := by
  simp only [cc1__layer1_body_eq_skeleton]; unfold cc1__layer1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«178646_g43207370998080_cont_sun_c4_156_2_alg».proof.Proof.Gen.KernelIdeal.Launch
import proofs.«178646_g43207370998080_cont_sun_c4_156_2_alg».proof.Proof.Gen.KernelIdeal.Skeleton
import proofs.«178646_g43207370998080_cont_sun_c4_156_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third kernel call (grid 50 × 2): the second graph-convolution layer, summed over the two views

At the point (i, v) the body multiplies the i-th row block of view v's adjacency with view v's hidden
features. At v = 0 it stores that product plus the sum of the two biases into the output block; at v = 1 it
adds the product to what the output block holds. The output block's buffer is carried from (i, 0) to (i, 1)
and written back after (i, 1) only. Everything here is stated at any float model `F` and at a parameter
`V`, the buffer contents when the call is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

abbrev r2_0 : Rect S1x200x10000 := Rect.unit (s := S1x200x10000) ![0, 0, 0] S1x200x10000.size inb_S1x200x10000_S1x200x10000_0_0_0
abbrev r2_1 (off : Fin 3 → Nat) (hoff : ∀ a, off a + S1x10000x16.size a ≤ S2x10000x16.size a) : Rect S2x10000x16 :=
  Rect.unit (s := S2x10000x16) off S1x10000x16.size hoff
abbrev r2_b0 : Rect S2x1x16 := Rect.unit (s := S2x1x16) ![0, 0, 0] S1x1x16.size inb_S2x1x16_S1x1x16_0_0_0
abbrev r2_b1 : Rect S2x1x16 := Rect.unit (s := S2x1x16) ![1, 0, 0] S1x1x16.size inb_S2x1x16_S1x1x16_1_0_0
abbrev r2_o : Rect S200x16 := Rect.unit (s := S200x16) ![0, 0] S200x16.size inb_S200x16_S200x16_0_0

/-! ## What the body leaves in the output block's buffer -/

/-- At v = 0: the one store, of the product plus the two biases. -/
def out2_A (x0 : Vec F S1x200x10000 .f32) (x1 : Vec F S2x10000x16 .bf16) (x2 : Vec F S2x1x16 .f32)
    (off : Fin 3 → Nat) (hoff : ∀ a, off a + S1x10000x16.size a ≤ S2x10000x16.size a) : Vec F S200x16 .f32 :=
  View.canon [⟨r2_o, k2_pay2 (View.ld x0 r2_0) (View.ld x1 (r2_1 off hoff)) (View.ld x2 r2_b0) (View.ld x2 r2_b1)⟩]

/-- At v = 1: the one store, of what the buffer held plus the product. -/
def out2_B (x0 : Vec F S1x200x10000 .f32) (x1 : Vec F S2x10000x16 .bf16)
    (off : Fin 3 → Nat) (hoff : ∀ a, off a + S1x10000x16.size a ≤ S2x10000x16.size a) (prev : Vec F S200x16 .f32) : Vec F S200x16 .f32 :=
  View.canon [⟨r2_o, k2_pay3 (View.ld x0 r2_0) (View.ld x1 (r2_1 off hoff)) (View.ld prev r2_o)⟩]

/-- The store covers the buffer. -/
theorem cover2_3 (p0 : Vec F S200x16 .f32) (y : S200x16.Idx) :
    ∃ pc ∈ ([⟨r2_o, p0⟩] : List (View.Piece (Elt F) S200x16 .f32)), y ∈ pc.1.set :=
  View.cover_of_tiled [⟨r2_o, p0⟩] S200x16.size (by rfl) y

/-! ## The body's triple, per case -/

set_option maxHeartbeats 1000000 in
/-- The body at a point with v = 0: the inputs' memrefs at read contents, the output's at anything. -/
theorem sound_kernel2_A (c : Dev nD) (E : Set ℕ) (i : grid2.Coords) (h1 : k2_cond1 i = 1#1) (h2 : ¬ k2_cond2 i = 1#1)
    (arg2 : Memref sig .tc .vmem S1x200x10000 .f32) (harg2 : arg2.IsWhole) (arg3 : Memref sig .tc .vmem S2x10000x16 .bf16) (harg3 : arg3.IsWhole)
    (arg4 : Memref sig .tc .vmem S2x1x16 .f32) (harg4 : arg4.IsWhole) (arg5 : Memref sig .tc .vmem S200x16 .f32) (harg5 : arg5.IsWhole)
    (x0 : Vec F S1x200x10000 .f32) (x1 : Vec F S2x10000x16 .bf16) (x2 : Vec F S2x1x16 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_A x0 x1 x2 (k2_off1 i) (k2_off1_inb i))) -∗ K ⟨⟩))
      ⊢ wp frame (wpE (defs₀ (F := F)) Variants.none c none) E (cc2__layer2_body i arg2 harg2 arg3 harg3 arg4 harg4 arg5 harg5) K := by
  simp only [cc2__layer2_body_eq_skeleton]; unfold cc2__layer2_body_skel
  simp only [dif_pos h1, dif_neg h2]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

set_option maxHeartbeats 1000000 in
/-- The body at a point with v = 1: the inputs' memrefs at read contents, the output's at read contents `prev`. -/
theorem sound_kernel2_B (c : Dev nD) (E : Set ℕ) (i : grid2.Coords) (h1 : ¬ k2_cond1 i = 1#1) (h2 : k2_cond2 i = 1#1)
    (arg2 : Memref sig .tc .vmem S1x200x10000 .f32) (harg2 : arg2.IsWhole) (arg3 : Memref sig .tc .vmem S2x10000x16 .bf16) (harg3 : arg3.IsWhole)
    (arg4 : Memref sig .tc .vmem S2x1x16 .f32) (harg4 : arg4.IsWhole) (arg5 : Memref sig .tc .vmem S200x16 .f32) (harg5 : arg5.IsWhole)
    (x0 : Vec F S1x200x10000 .f32) (x1 : Vec F S2x10000x16 .bf16) (x2 : Vec F S2x1x16 .f32) (prev : Vec F S200x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare prev
        ∗ (iprop(owns (c : Thread nD τ) arg2 fullShare x0 ∗ owns (c : Thread nD τ) arg3 fullShare x1 ∗ owns (c : Thread nD τ) arg4 fullShare x2
            ∗ owns (c : Thread nD τ) arg5 fullShare (out2_B x0 x1 (k2_off1 i) (k2_off1_inb i) prev)) -∗ K ⟨⟩))
      ⊢ wp frame (wpE (defs₀ (F := F)) Variants.none c none) E (cc2__layer2_body i arg2 harg2 arg3 harg3 arg4 harg4 arg5 harg5) K := by
  simp only [cc2__layer2_body_eq_skeleton]; unfold cc2__layer2_body_skel
  simp only [dif_neg h1, dif_pos h2]
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The conditions and the idle table, in closed form -/

/-- The first condition holds exactly at the points with v = 0, -/
theorem cond2_1 : ∀ t : Fin cfg2.N, k2_cond1 (grid2.coords t) = 1#1 ↔ t.val % 2 = 0 :=
  (by decide +kernel : ∀ t : Fin grid2.N, k2_cond1 (grid2.coords t) = 1#1 ↔ t.val % 2 = 0)
/-- the second exactly at those with v = 1. -/
theorem cond2_2 : ∀ t : Fin cfg2.N, k2_cond2 (grid2.coords t) = 1#1 ↔ t.val % 2 = 1 :=
  (by decide +kernel : ∀ t : Fin grid2.N, k2_cond2 (grid2.coords t) = 1#1 ↔ t.val % 2 = 1)

/-- One of the two conditions holds at every setting of the coordinates: the output is stored at every point. -/
theorem live2_3 (i : grid2.Coords) : cfg2.idle 3 i = false := by
  show (!(k2_cond1 i == 1#1) && !(k2_cond2 i == 1#1)) = false
  unfold k2_cond1 k2_cond2
  generalize i 1 = n
  revert n
  decide

/-! ## The inputs' buffers at a point -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- What a point with v = 0 leaves in the output block's buffer, from the windows' blocks there. -/
def o2_A (c : Dev nD) (t : Fin cfg2.N) : Vec F S200x16 .f32 :=
  out2_A (iblk2 V c 0 t) (iblk2 V c 1 t) (iblk2 V c 2 t) (k2_off1 (grid2.coords t)) (k2_off1_inb (grid2.coords t))

/-- The proof data: the arrays as the call finds them; after the body each input's buffer at its block, the output's
    at the v = 0 contents at an even point and, at an odd point, at the v = 1 contents over what the point before
    left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ =>
      if t.val % 2 = 0 then o2_A V c t
      else out2_B (iblk2 V c 0 t) (iblk2 V c 1 t) (k2_off1 (grid2.coords t)) (k2_off1_inb (grid2.coords t))
        (o2_A V c ⟨t.val - 1, Nat.lt_of_le_of_lt (Nat.sub_le _ _) t.isLt⟩)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t =
    if t.val % 2 = 0 then o2_A V c t
    else out2_B (iblk2 V c 0 t) (iblk2 V c 1 t) (k2_off1 (grid2.coords t)) (k2_off1_inb (grid2.coords t))
      (o2_A V c ⟨t.val - 1, Nat.lt_of_le_of_lt (Nat.sub_le _ _) t.isLt⟩) := by dsimp only [dat2]
theorem after2_3_even (c : Dev nD) (t : Fin cfg2.N) (h : t.val % 2 = 0) : (dat2 V c).after 3 t = o2_A V c t := by
  rw [after2_3, if_pos h]
theorem after2_3_odd (c : Dev nD) (t : Fin cfg2.N) (h : t.val % 2 = 1) : (dat2 V c).after 3 t =
    out2_B (iblk2 V c 0 t) (iblk2 V c 1 t) (k2_off1 (grid2.coords t)) (k2_off1_inb (grid2.coords t))
      (o2_A V c ⟨t.val - 1, Nat.lt_of_le_of_lt (Nat.sub_le _ _) t.isLt⟩) := by
  rw [after2_3, if_neg (by omega)]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- At a point with v = 1 the output block's buffer holds what the point before left: the point is not the first, the
    buffer was not written back between, the window is stored at every point and is not cut. -/
theorem before2_3_odd (c : Dev nD) (t : Fin cfg2.N) (h : t.val % 2 = 1) (d) :
    (dat2 V c).before 3 t d = o2_A V c ⟨t.val - 1, Nat.lt_of_le_of_lt (Nat.sub_le _ _) t.isLt⟩ := by
  rw [Dat.before_out_kept _ 3 rfl t (by omega) (Bool.eq_false_iff.mpr fun hf => by have := (flush2_3 _).mp hf; dsimp only at this; omega)
    live2_3 (fun _ _ => rfl)]
  exact after2_3_even V c _ (by dsimp only; omega)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' memrefs hold their blocks; by the parity of the point one of the two cases
    applies, and at an odd point the output's memref holds what the point before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2]
  rcases Nat.mod_two_eq_zero_or_one t.val with h | h
  · rw [after2_3_even V c t h]
    unfold o2_A
    iintro ⟨HΦ, Ho, ⟨%d0, H0⟩, ⟨%d1, H1⟩, ⟨%d2, H2⟩, ⟨%d3, H3⟩⟩
    iapply (sound_kernel2_A c Set.univ (grid2.coords t) ((cond2_1 t).mpr h) (fun hc => by have := (cond2_2 t).mp hc; omega)
      _ _ _ _ _ _ _ _ (iblk2 V c 0 t) (iblk2 V c 1 t) (iblk2 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [after2_3_odd V c t h]
    simp only [before2_3_odd V c t h]
    iintro ⟨HΦ, Ho, ⟨%d0, H0⟩, ⟨%d1, H1⟩, ⟨%d2, H2⟩, ⟨%d3, H3⟩⟩
    iapply (sound_kernel2_B c Set.univ (grid2.coords t) (fun hc => by have := (cond2_1 t).mp hc; omega) ((cond2_2 t).mpr h)
      _ _ _ _ _ _ _ _ (iblk2 V c 0 t) (iblk2 V c 1 t) (iblk2 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point: the output window is stored at every point (`live2_3`), so what
    the body returns of it is its `after`. -/
theorem body_obligation2 (c : Dev nD) : BodyObligation (dat2 (F := F) V c) (defs₀ (F := F)) Variants.none () Set.univ := fun t => by
  rw [bigSep_W2, bigSep_W2]
  have hl : cfg2.idle 3 (cfg2.grid.coords t) = false := live2_3 _
  rw [hl]
  exact sound_body2 V c t

end Cert.KernelIdeal.Hand

end
-- ==== Proof.KI.Run.lean ====
/-
  The whole program's run, from the three regions' halves.

  The TensorCore's unscoped buffers are followed through @main: at launch they hold the launch memory; the host
  operations that stack the two views' weights and biases rewrite their own result buffers; each kernel region then
  leaves its windows' arrays at what its write-backs fold to and every other buffer as it found it. Each region is
  entered from the thread state "every unscoped buffer at the contents so far, the generator register at some state,
  nothing owed" and leaves it at the next contents; the launch theorem for a list of such segments then says every
  weakly fair execution ends, without a fault, in a memory whose unscoped buffers hold the last contents. The
  argument arrays are read back through the fold to the launch memory, and the result array is what region 2's
  write-backs leave.
-/
import proofs.«178646_g43207370998080_cont_sun_c4_156_2_alg».proof.Proof.KI.R0
import proofs.«178646_g43207370998080_cont_sun_c4_156_2_alg».proof.Proof.KI.R1
import proofs.«178646_g43207370998080_cont_sun_c4_156_2_alg».proof.Proof.KI.R2
import proofs.«178646_g43207370998080_cont_sun_c4_156_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m ((c : Dev nD), b)
/-- After the host operations (region 0's entry). -/
abbrev B1 : Dev nD → Valuation τ sig (Elt F) := fun c => StableHlo.after hostOps0 (B0 m c)
/-- The same read at the TensorCore's references. -/
abbrev U1 : (c : Dev nD) → (b : Ref sig .tc) → Buf (Elt F) ((c : Thread nD τ).loc b) := fun c b => B1 m c b
/-- At region 0's exit: its arrays at what the pipeline leaves, every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- At region 1's exit. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-- At region 2's exit. -/
def B4 (c : Dev nD) : Valuation τ sig (Elt F) :=
  Pipeline.withArrays spec2 c (B3 m c) fun w => (dat2 (U3 m) c).arrAt w cfg2.N
theorem B4_arr (c : Dev nD) (w : Fin cfg2.W) :
    B4 m c (Proc.devRef .tc (Pipeline.arrRef spec2 w)) = (dat2 (U3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev U4 : (c : Dev nD) → (b : Ref sig .tc) → Buf (Elt F) ((c : Thread nD τ).loc b) := fun c b => B4 m c b
theorem hF2 (c : Dev nD) (w : Fin cfg2.W) : (dat2 (U3 m) c).arrAt w cfg2.N = U4 m c (Pipeline.arrRef spec2 w) :=
  (B4_arr m c w).symm
theorem hrest2 (c : Dev nD) : ∀ b, b ∉ Finset.univ.image (Pipeline.arrRef spec2) → U4 m c b = U3 m c b :=
  fun b hb => B4_of_ne m c b fun w e => hb (Finset.mem_image.mpr ⟨w, Finset.mem_univ _, e⟩)

/-! ## A buffer no host operation writes and no region has as a window's array ends as launched -/

/-- The host operations write only their own results. -/
theorem B1_of (c : Dev nD) (r : Ref sig .tc) (h : r ∉ hostOps0_W) : B1 m c (Proc.devRef .tc r) = m ((c : Thread nD τ).loc r) :=
  (StableHlo.after_of_writes_sub hostOps0 _ hostOps0_writes h).trans rfl

/-- An input window's array is as the region found it. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (U1 m) c).arrAt_in w hw _).trans (A_eq0 (U1 m) c w))
theorem B3_in (c : Dev nD) (w : Fin cfg1.W) (hw : (cfg1.win w).isOut = false) :
    B3 m c (Proc.devRef .tc (Pipeline.arrRef spec1 w)) = B2 m c (Proc.devRef .tc (Pipeline.arrRef spec1 w)) :=
  (B3_arr m c w).trans (((dat1 (U2 m) c).arrAt_in w hw _).trans (A_eq1 (U2 m) c w))
theorem B4_in (c : Dev nD) (w : Fin cfg2.W) (hw : (cfg2.win w).isOut = false) :
    B4 m c (Proc.devRef .tc (Pipeline.arrRef spec2 w)) = B3 m c (Proc.devRef .tc (Pipeline.arrRef spec2 w)) :=
  (B4_arr m c w).trans (((dat2 (U3 m) c).arrAt_in w hw _).trans (A_eq2 (U3 m) c w))

theorem B4_main_arg0 (c : Dev nD) : B4 m c (Proc.devRef .tc main_arg0) = m ((c : Thread nD τ).loc main_arg0) :=
  (B4_of_ne m c main_arg0 (by decide)).trans <| (B3_of_ne m c main_arg0 (by decide)).trans <|
    (B2_in m c 0 rfl).trans (B1_of m c main_arg0 (by decide))
theorem B4_main_arg1 (c : Dev nD) : B4 m c (Proc.devRef .tc main_arg1) = m ((c : Thread nD τ).loc main_arg1) :=
  (B4_in m c 0 rfl).trans <| (B3_in m c 0 rfl).trans <|
    (B2_of_ne m c main_arg1 (by decide)).trans (B1_of m c main_arg1 (by decide))
theorem B4_main_arg2 (c : Dev nD) : B4 m c (Proc.devRef .tc main_arg2) = m ((c : Thread nD τ).loc main_arg2) :=
  (B4_of_ne m c main_arg2 (by decide)).trans <| (B3_of_ne m c main_arg2 (by decide)).trans <|
    (B2_of_ne m c main_arg2 (by decide)).trans (B1_of m c main_arg2 (by decide))
theorem B4_main_arg3 (c : Dev nD) : B4 m c (Proc.devRef .tc main_arg3) = m ((c : Thread nD τ).loc main_arg3) :=
  (B4_of_ne m c main_arg3 (by decide)).trans <| (B3_of_ne m c main_arg3 (by decide)).trans <|
    (B2_of_ne m c main_arg3 (by decide)).trans (B1_of m c main_arg3 (by decide))
theorem B4_main_arg4 (c : Dev nD) : B4 m c (Proc.devRef .tc main_arg4) = m ((c : Thread nD τ).loc main_arg4) :=
  (B4_of_ne m c main_arg4 (by decide)).trans <| (B3_of_ne m c main_arg4 (by decide)).trans <|
    (B2_of_ne m c main_arg4 (by decide)).trans (B1_of m c main_arg4 (by decide))
theorem B4_main_arg5 (c : Dev nD) : B4 m c (Proc.devRef .tc main_arg5) = m ((c : Thread nD τ).loc main_arg5) :=
  (B4_of_ne m c main_arg5 (by decide)).trans <| (B3_of_ne m c main_arg5 (by decide)).trans <|
    (B2_of_ne m c main_arg5 (by decide)).trans (B1_of m c main_arg5 (by decide))
theorem B4_main_arg6 (c : Dev nD) : B4 m c (Proc.devRef .tc main_arg6) = m ((c : Thread nD τ).loc main_arg6) :=
  (B4_of_ne m c main_arg6 (by decide)).trans <| (B3_of_ne m c main_arg6 (by decide)).trans <|
    (B2_of_ne m c main_arg6 (by decide)).trans (B1_of m c main_arg6 (by decide))
theorem B4_main_arg7 (c : Dev nD) : B4 m c (Proc.devRef .tc main_arg7) = m ((c : Thread nD τ).loc main_arg7) :=
  (B4_of_ne m c main_arg7 (by decide)).trans <| (B3_of_ne m c main_arg7 (by decide)).trans <|
    (B2_of_ne m c main_arg7 (by decide)).trans (B1_of m c main_arg7 (by decide))
theorem B4_main_arg8 (c : Dev nD) : B4 m c (Proc.devRef .tc main_arg8) = m ((c : Thread nD τ).loc main_arg8) :=
  (B4_of_ne m c main_arg8 (by decide)).trans <| (B3_of_ne m c main_arg8 (by decide)).trans <|
    (B2_of_ne m c main_arg8 (by decide)).trans (B1_of m c main_arg8 (by decide))
theorem B4_main_arg9 (c : Dev nD) : B4 m c (Proc.devRef .tc main_arg9) = m ((c : Thread nD τ).loc main_arg9) :=
  (B4_of_ne m c main_arg9 (by decide)).trans <| (B3_of_ne m c main_arg9 (by decide)).trans <|
    (B2_of_ne m c main_arg9 (by decide)).trans (B1_of m c main_arg9 (by decide))

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (U1 m) c
  | ⟨1, _⟩ => fun c => dat1 (U2 m) c
  | ⟨2, _⟩ => fun c => dat2 (U3 m) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (B4 m c) ∗ ∃ r, prngReg c r)

/-! ## The regions as segments -/

set_option backward.isDefEq.respectTransparency.types false in
def reg0 : Pipeline.RegionSeg (pcfgs (F := F)) adm' (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (B1 m c) ∗ Rr c)
  post c := iprop(StableHlo.held (c : Thread nD τ) (Pipeline.ucRefs τ sig) (B2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ Lz lvz 1 fun _ _ => rfl
  pre c := iprop(StableHlo.held (c : Thread nD τ) (Pipeline.ucRefs τ sig) (B2 m c) ∗ Rr c)
  post c := iprop(StableHlo.held (c : Thread nD τ) (Pipeline.ucRefs τ sig) (B3 m c) ∗ Rr c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm' (pdats m) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ Lz lvz 2 fun _ _ => rfl
  pre c := iprop(StableHlo.held (c : Thread nD τ) (Pipeline.ucRefs τ sig) (B3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm' (pdats m) () defs₀ 𝒱₀ Lz lvz) :=
  [ .host (hseg hostOps0 hostOps0_sub hostOps0_fresh (B0 m)),
    .region (reg0 m),
    .region (reg1 m),
    .region (reg2 m) ]
theorem main_run (c : Dev nD) : main (F := F) c = Pipeline.Seg.run (segsH m) := (main_chain c).trans (by chain_rfl)

set_option backward.isDefEq.respectTransparency.types false in
/-- Every weakly fair execution of @main from memory `m` with zero counters terminates, nothing faulting, and every
    final memory holds each unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm' (pdats m) () cellOf_inj emb₁ defs₀ 𝒱₀ Lz lvz m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c)) (Tₙ := Tn m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c),
     (h c _ (mem_uc main_arg8 (by decide))).trans (B4_main_arg8 m c),
     (h c _ (mem_uc main_arg9 (by decide))).trans (B4_main_arg9 m c)⟩) (run_all m ρ)

end Cert.KernelIdeal.Hand

end
-- ==== Proof.Val.G.lean ====
/-
  What each kernel region leaves in its output array, as one function of the arrays it reads, entry by entry on the
  extended reals:
    region 0: s[v, r, j] = Σ_k x[r, k] · w1[v, k, j]
    region 1: t[v, r, q] = Σ_j max ((Σ_k a[v, r, k] · s[v, k, j]) + b1[v, 0, j]) z · w2[v, j, q]
    region 2: o[r, q]    = ((Σ_k a[0, r, k] · t[0, k, q]) + (b2[0, 0, q] + b2[1, 0, q])) + Σ_k a[1, r, k] · t[1, k, q]
  (z the value of the zero word, left unevaluated).
-/
import proofs.«178646_g43207370998080_cont_sun_c4_156_2_alg».proof.KernelIdeal
import Idealize.ShloMosaic.PureOps.Ideal
import Idealize.ShloMosaic.Lib.ValueIdx

noncomputable section

namespace Cert.KernelIdeal.Val

open Cert.KernelIdeal Idealize.ShloMosaic Idealize.ShloMosaic.ValueIdx

/-- The value of the zero word. -/
abbrev zw : EReal := Ideal.ofBits .f32 0x00000000#32

/-- Region 0's output by coordinates. -/
def g0 (X : S10000x128.Idx → EReal) (W : S2x128x64.Idx → EReal) (v : Fin 2) (r : Fin 10000) (j : Fin 64) : EReal :=
  ∑ k : Fin 128, X (ix2 r k) * W (ix3 v k j)
/-- Region 0's output array. -/
def G0 (X : S10000x128.Idx → EReal) (W : S2x128x64.Idx → EReal) : S2x10000x64.Idx → EReal :=
  fun i => g0 X W (i 0) (i 1) (i 2)
theorem G0_apply (X : S10000x128.Idx → EReal) (W : S2x128x64.Idx → EReal) (v : Fin 2) (r : Fin 10000) (j : Fin 64) :
    G0 X W (ix3 v r j) = g0 X W v r j := rfl

/-- Region 1's output by coordinates. -/
def g1 (A : S2x10000x10000.Idx → EReal) (S : S2x10000x64.Idx → EReal) (B : S2x1x64.Idx → EReal) (W : S2x64x16.Idx → EReal)
    (v : Fin 2) (r : Fin 10000) (q : Fin 16) : EReal :=
  ∑ j : Fin 64, max ((∑ k : Fin 10000, A (ix3 v r k) * S (ix3 v k j)) + B (ix3 v (0 : Fin 1) j)) zw * W (ix3 v j q)
/-- Region 1's output array. -/
def G1 (A : S2x10000x10000.Idx → EReal) (S : S2x10000x64.Idx → EReal) (B : S2x1x64.Idx → EReal) (W : S2x64x16.Idx → EReal) :
    S2x10000x16.Idx → EReal :=
  fun i => g1 A S B W (i 0) (i 1) (i 2)
theorem G1_apply (A : S2x10000x10000.Idx → EReal) (S : S2x10000x64.Idx → EReal) (B : S2x1x64.Idx → EReal) (W : S2x64x16.Idx → EReal)
    (v : Fin 2) (r : Fin 10000) (q : Fin 16) : G1 A S B W (ix3 v r q) = g1 A S B W v r q := rfl

/-- Region 2's output by coordinates. -/
def g2 (A : S2x10000x10000.Idx → EReal) (T : S2x10000x16.Idx → EReal) (B : S2x1x16.Idx → EReal) (r : Fin 10000) (q : Fin 16) : EReal :=
  ((∑ k : Fin 10000, A (ix3 (0 : Fin 2) r k) * T (ix3 (0 : Fin 2) k q)) + (B (ix3 (0 : Fin 2) (0 : Fin 1) q) + B (ix3 (1 : Fin 2) (0 : Fin 1) q)))
    + ∑ k : Fin 10000, A (ix3 (1 : Fin 2) r k) * T (ix3 (1 : Fin 2) k q)
/-- Region 2's output array. -/
def G2 (A : S2x10000x10000.Idx → EReal) (T : S2x10000x16.Idx → EReal) (B : S2x1x16.Idx → EReal) : S10000x16.Idx → EReal :=
  fun i => g2 A T B (i 0) (i 1)
theorem G2_apply (A : S2x10000x10000.Idx → EReal) (T : S2x10000x16.Idx → EReal) (B : S2x1x16.Idx → EReal) (r : Fin 10000) (q : Fin 16) :
    G2 A T B (ix2 r q) = g2 A T B r q := rfl

end Cert.KernelIdeal.Val

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.Val.V0.lean ====
import proofs.«178646_g43207370998080_cont_sun_c4_156_2_alg».proof.Proof.KI.R0
import proofs.«178646_g43207370998080_cont_sun_c4_156_2_alg».proof.Proof.Val.G
import proofs.«178646_g43207370998080_cont_sun_c4_156_2_alg».proof.Proof.LibPlainDot
import proofs.«178646_g43207370998080_cont_sun_c4_156_2_alg».proof.Proof.LibLayoutB
import Idealize.ShloMosaic.Lib.Pipeline.Value
import Idealize.ShloMosaic.Lib.ValueIdx
import Idealize.ShloMosaic.Lib.ValueLayout
import Idealize.ShloMosaic.PureOps.Ideal.Laws

/-!
# Region 0 on the extended reals: from the blocks to the array

Every grid point writes back, for both views `v`, the rows `200·t … 200·t + 199` of `x · W1_v`; the 50 points'
blocks tile the output array, which therefore ends holding `G0` of the two arrays the region reads.
-/

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payloads at an index -/

/-- One view's product at an entry: the sum over the 128 features. -/
theorem pay2_apply (x0 : Vec Ideal S200x128 .f32) (w : Vec Ideal S1x128x64 .f32) (u : Fin 1) (p : Fin 200) (j : Fin 64) :
    k0_pay2 x0 w (ix3 u p j) = ∑ k : Fin 128, x0 (ix2 p k) * w (ix3 (0 : Fin 1) k j) := by
  unfold k0_pay2 k0_pay1
  refine (shapeCast_ab_1ab_apply _ _ u p j).trans ?_
  refine (Cert.LibPlainDot.matmul_zero_apply _ ⟨rfl, rfl, rfl, rfl, rfl, rfl⟩ none _ _ p j).trans ?_
  refine Finset.sum_congr rfl fun k _ => ?_
  rw [truncf_apply, truncf_apply, shapeCast_1ab_ab_apply]

theorem pay3_apply (x0 : Vec Ideal S200x128 .f32) (w : Vec Ideal S1x128x64 .f32) (u : Fin 1) (p : Fin 200) (j : Fin 64) :
    k0_pay3 x0 w (ix3 u p j) = ∑ k : Fin 128, x0 (ix2 p k) * w (ix3 (0 : Fin 1) k j) := by
  unfold k0_pay3 k0_pay1
  refine (shapeCast_ab_1ab_apply _ _ u p j).trans ?_
  refine (Cert.LibPlainDot.matmul_zero_apply _ ⟨rfl, rfl, rfl, rfl, rfl, rfl⟩ none _ _ p j).trans ?_
  refine Finset.sum_congr rfl fun k _ => ?_
  rw [truncf_apply, truncf_apply, shapeCast_1ab_ab_apply]

/-! ## The output block at an index -/

/-- The output block: view `y 0`'s product at row `y 1`, column `y 2`. -/
theorem out0_2_idx (x0 : Vec Ideal S200x128 .f32) (x1 : Vec Ideal S2x128x64 .f32) (y : S2x200x64.Idx) :
    out0_2 x0 x1 y = ∑ k : Fin 128, x0 (ix2 (y 1) k) * x1 (ix3 (y 0) k (y 2)) := by
  unfold out0_2
  refine View.canon_apply_of_pieces (fun y => ∑ k : Fin 128, x0 (ix2 (y 1) k) * x1 (ix3 (y 0) k (y 2))) _ ?_ y (cover0_2 _ _ y)
  intro p hp x
  rcases List.mem_cons.mp hp with rfl | hp
  · -- view 1's half: rows of the block, the weight matrix at offset 1 of the stacked block
    have hx : (x 0).val < 1 := (x 0).isLt
    refine ((congrArg (k0_pay3 (View.ld x0 r0_x) (View.ld x1 r0_w1)) (eq_ix3 x)).trans (pay3_apply _ _ _ _ _)).trans ?_
    refine Finset.sum_congr rfl fun k _ => ?_
    have e0 : r0_x.idx (ix2 (x 1) k) = ix2 ((r0_out1.emb x) 1) k := funext fun a => Fin.ext (by
      match a with
      | ⟨0, _⟩ => show 0 + 1 * (x 1).val = 0 + 1 * (x 1).val; rfl
      | ⟨1, _⟩ => show 0 + 1 * k.val = k.val; omega)
    have e1 : r0_w1.idx (ix3 (0 : Fin 1) k (x 2)) = ix3 ((r0_out1.emb x) 0) k ((r0_out1.emb x) 2) := funext fun a => Fin.ext (by
      match a with
      | ⟨0, _⟩ => show 1 + 1 * 0 = 1 + 1 * (x 0).val; omega
      | ⟨1, _⟩ => show 0 + 1 * k.val = k.val; omega
      | ⟨2, _⟩ => show 0 + 1 * (x 2).val = 0 + 1 * (x 2).val; rfl)
    show x0 (r0_x.idx (ix2 (x 1) k)) * x1 (r0_w1.idx (ix3 (0 : Fin 1) k (x 2))) = _
    rw [e0, e1]; rfl
  · -- view 0's half
    rcases List.mem_cons.mp hp with rfl | hp
    swap; · exact absurd hp List.not_mem_nil
    have hx : (x 0).val < 1 := (x 0).isLt
    refine ((congrArg (k0_pay2 (View.ld x0 r0_x) (View.ld x1 r0_w0)) (eq_ix3 x)).trans (pay2_apply _ _ _ _ _)).trans ?_
    refine Finset.sum_congr rfl fun k _ => ?_
    have e0 : r0_x.idx (ix2 (x 1) k) = ix2 ((r0_out0.emb x) 1) k := funext fun a => Fin.ext (by
      match a with
      | ⟨0, _⟩ => show 0 + 1 * (x 1).val = 0 + 1 * (x 1).val; rfl
      | ⟨1, _⟩ => show 0 + 1 * k.val = k.val; omega)
    have e1 : r0_w0.idx (ix3 (0 : Fin 1) k (x 2)) = ix3 ((r0_out0.emb x) 0) k ((r0_out0.emb x) 2) := funext fun a => Fin.ext (by
      match a with
      | ⟨0, _⟩ => show 0 + 1 * 0 = 0 + 1 * (x 0).val; omega
      | ⟨1, _⟩ => show 0 + 1 * k.val = k.val; omega
      | ⟨2, _⟩ => show 0 + 1 * (x 2).val = 0 + 1 * (x 2).val; rfl)
    show x0 (r0_x.idx (ix2 (x 1) k)) * x1 (r0_w0.idx (ix3 (0 : Fin 1) k (x 2))) = _
    rw [e0, e1]; rfl

/-- The same by coordinates. -/
theorem out0_2_apply (x0 : Vec Ideal S200x128 .f32) (x1 : Vec Ideal S2x128x64 .f32) (v : Fin 2) (p : Fin 200) (j : Fin 64) :
    out0_2 x0 x1 (ix3 v p j) = ∑ k : Fin 128, x0 (ix2 p k) * x1 (ix3 v k j) :=
  out0_2_idx x0 x1 (ix3 v p j)

/-! ## The windows' blocks in their arrays -/

/-- The printed index maps, decided over the grid: at point `t` the block of `x` and the output's block are the
    `t`-th row blocks, the stacked weights the whole array. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- The block of `x` at point `t`: rows `200·t + p`. -/
theorem iblk0_0_apply (c : Dev nD) (t : Fin cfg0.N) (p : Fin 200) (k : Fin 128) (r : Fin 10000) (hr : r.val = t.val * 200 + p.val) :
    iblk0 V c 0 t (ix2 p k) = V c main_arg0 (ix2 r k) := by
  obtain ⟨e0, e1, -⟩ := idx_facts0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 200 + 1 * p.val = r.val; omega
  | ⟨1, _⟩ => show win0_0.index t (1 : Fin 2) * 128 + 1 * k.val = k.val; omega

/-- The block of the stacked weights at any point: the whole array. -/
theorem iblk0_1_apply (c : Dev nD) (t : Fin cfg0.N) (v : Fin 2) (k : Fin 128) (j : Fin 64) :
    iblk0 V c 1 t (ix3 v k j) = V c main_call0_v2 (ix3 v k j) := by
  obtain ⟨-, -, e2, e3, e4, -⟩ := idx_facts0 t
  show V c main_call0_v2 (((cfg0.win 1).blk t).view.emb (ix3 v k j)) = V c main_call0_v2 (ix3 v k j)
  refine congrArg _ (funext fun a => Fin.ext ?_)
  match a with
  | ⟨0, _⟩ => show win0_1.index t (0 : Fin 3) * 2 + 1 * v.val = v.val; omega
  | ⟨1, _⟩ => show win0_1.index t (1 : Fin 3) * 128 + 1 * k.val = k.val; omega
  | ⟨2, _⟩ => show win0_1.index t (2 : Fin 3) * 64 + 1 * j.val = j.val; omega

/-! ## What a point writes back -/

/-- At point `t` the body leaves, at each index of the output block, `G0` at that index's place in the array. -/
theorem flushed0_point (c : Dev nD) (t : Fin cfg0.N) (y : S2x200x64.Idx) :
    out0_2 (iblk0 V c 0 t) (iblk0 V c 1 t) y = G0 (V c main_arg0) (V c main_call0_v2) (((cfg0.win 2).blk t).view.emb y) := by
  obtain ⟨v, p, j, rfl⟩ : ∃ (v : Fin 2) (p : Fin 200) (j : Fin 64), y = ix3 v p j := ⟨y 0, y 1, y 2, eq_ix3 y⟩
  obtain ⟨-, -, -, -, -, e5, e6, e7⟩ := idx_facts0 t
  have ht : t.val < 50 := t.isLt
  have hr : t.val * 200 + p.val < 10000 := by omega
  have hi : ((cfg0.win 2).blk t).view.emb (ix3 v p j) = (ix3 v (⟨t.val * 200 + p.val, hr⟩ : Fin 10000) j : S2x10000x64.Idx) := funext fun a => Fin.ext (by
    match a with
    | ⟨0, _⟩ => show win0_2.index t (0 : Fin 3) * 2 + 1 * v.val = v.val; omega
    | ⟨1, _⟩ => show win0_2.index t (1 : Fin 3) * 200 + 1 * p.val = t.val * 200 + p.val; omega
    | ⟨2, _⟩ => show win0_2.index t (2 : Fin 3) * 64 + 1 * j.val = j.val; omega)
  rw [hi, G0_apply, out0_2_apply]
  unfold g0
  refine Finset.sum_congr rfl fun k _ => ?_
  rw [iblk0_0_apply V c t p k ⟨t.val * 200 + p.val, hr⟩ rfl, iblk0_1_apply]

/-- Point `t` writes back block `t` of `G0` of the arrays the region reads. -/
theorem flushed0_eq (c : Dev nD) (t : Fin cfg0.N) :
    (dat0 V c).flushed 2 t = ((cfg0.win 2).blk t).view.read (Elt Ideal) (G0 (V c main_arg0) (V c main_call0_v2)) := by
  show (cfg0.win 2).cut (grid0.coords t) ((dat0 V c).after 2 t) = _
  rw [after0_2]
  funext y
  exact flushed0_point V c t y

/-! ## The blocks tile the array -/

/-- An index of the array is in point `t`'s block iff each coordinate is in the block's range on its axis. -/
theorem mem_blk0 (t : Fin cfg0.N) (i : S2x10000x64.Idx) :
    i ∈ ((cfg0.win 2).blk t).view.set ↔ ∀ a : Fin 3, win0_2.index t a * S2x200x64.size a ≤ (i a).val ∧ (i a).val < win0_2.index t a * S2x200x64.size a + S2x200x64.size a := by
  show i ∈ ((View.whole main_call0_v14).slice (win0_2.rect t)).set ↔ _
  rw [View.set_slice_whole, Rect.mem_set_unit]
  exact Iff.rfl

/-- Row `r` of either view is in the block of point `r / 200`, which is written back. -/
theorem cover0 (i : S2x10000x64.Idx) : ∃ t : Fin cfg0.N, (cfg0.win 2).flush t = true ∧ i ∈ ((cfg0.win 2).blk t).view.set := by
  have h0 : (i 0).val < 2 := (i 0).isLt
  have h1 : (i 1).val < 10000 := (i 1).isLt
  have h2 : (i 2).val < 64 := (i 2).isLt
  have hN : (i 1).val / 200 < cfg0.N := by show (i 1).val / 200 < 50; omega
  refine ⟨⟨(i 1).val / 200, hN⟩, flush0_2 _, ?_⟩
  rw [mem_blk0]
  obtain ⟨-, -, -, -, -, e5, e6, e7⟩ := idx_facts0 ⟨(i 1).val / 200, hN⟩
  have e6' : win0_2.index ⟨(i 1).val / 200, hN⟩ (1 : Fin 3) = (i 1).val / 200 := e6
  intro a
  match a with
  | ⟨0, _⟩ => show win0_2.index ⟨(i 1).val / 200, hN⟩ (0 : Fin 3) * 2 ≤ (i 0).val ∧ (i 0).val < win0_2.index ⟨(i 1).val / 200, hN⟩ (0 : Fin 3) * 2 + 2; omega
  | ⟨1, _⟩ => show win0_2.index ⟨(i 1).val / 200, hN⟩ (1 : Fin 3) * 200 ≤ (i 1).val ∧ (i 1).val < win0_2.index ⟨(i 1).val / 200, hN⟩ (1 : Fin 3) * 200 + 200; omega
  | ⟨2, _⟩ => show win0_2.index ⟨(i 1).val / 200, hN⟩ (2 : Fin 3) * 64 ≤ (i 2).val ∧ (i 2).val < win0_2.index ⟨(i 1).val / 200, hN⟩ (2 : Fin 3) * 64 + 64; omega

/-! ## The array after the region -/

/-- Region 0 leaves `G0` of the arrays it reads in its output array. -/
theorem final0 (c : Dev nD) : (dat0 V c).arrAt 2 cfg0.N = G0 (V c main_arg0) (V c main_call0_v2) :=
  (dat0 V c).arrAt_eq_of_cover 2 (G0 (V c main_arg0) (V c main_call0_v2)) (fun t _ => flushed0_eq V c t) cover0

end Cert.KernelIdeal.Val

end
-- ==== Proof.Val.V1.lean ====
import proofs.«178646_g43207370998080_cont_sun_c4_156_2_alg».proof.Proof.KI.R1
import proofs.«178646_g43207370998080_cont_sun_c4_156_2_alg».proof.Proof.Val.G
import proofs.«178646_g43207370998080_cont_sun_c4_156_2_alg».proof.Proof.LibPlainDot
import proofs.«178646_g43207370998080_cont_sun_c4_156_2_alg».proof.Proof.LibLayoutB
import Idealize.ShloMosaic.Lib.Pipeline.Value
import Idealize.ShloMosaic.Lib.ValueIdx
import Idealize.ShloMosaic.Lib.ValueLayout
import Idealize.ShloMosaic.PureOps.Ideal.Laws

/-!
# Region 1 on the extended reals: from the blocks to the array

Grid point `t` is view `v = t / 50`, row block `i = t % 50`, and writes back rows `200·i … 200·i + 199` of view
`v` of `relu (adj_v · s_v + b1_v) · W2_v`; the 100 points' blocks tile the output array, which therefore ends
holding `G1` of the four arrays the region reads.
-/

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The payload at an index -/

/-- The layer at an entry: over the 64 hidden features, the rectified affine term times the second weight. -/
theorem pay1_apply (v0 : Vec Ideal S1x200x10000 .f32) (v3 : Vec Ideal S1x10000x64 .f32) (v7 : Vec Ideal S1x1x64 .f32) (v14 : Vec Ideal S1x64x16 .f32)
    (u : Fin 1) (p : Fin 200) (q : Fin 16) :
    k1_pay1 v0 v3 v7 v14 (ix3 u p q)
      = ∑ j : Fin 64, max ((∑ k : Fin 10000, v0 (ix3 (0 : Fin 1) p k) * v3 (ix3 (0 : Fin 1) k j)) + v7 (ix3 (0 : Fin 1) (0 : Fin 1) j)) zw
          * v14 (ix3 (0 : Fin 1) j q) := by
  unfold k1_pay1
  refine (shapeCast_ab_1ab_apply _ _ u p q).trans ?_
  refine (truncf_apply (φ := .f32) (ψ := .bf16) _ bitsLt_bf16_f32 _).trans ?_
  refine (Cert.LibPlainDot.matmul_zero_apply _ ⟨rfl, rfl, rfl, rfl, rfl, rfl⟩ none _ _ p q).trans ?_
  refine Finset.sum_congr rfl fun j _ => ?_
  refine congrArg₂ (· * ·) ?_ ?_
  · refine (truncf_apply (φ := .f32) (ψ := .bf16) _ bitsLt_bf16_f32 _).trans ?_
    refine (maximumf_apply _ _ _).trans ?_
    refine congrArg₂ max ?_ rfl
    refine (addf_apply _ _ _).trans ?_
    refine congrArg₂ (· + ·) ?_ ?_
    · refine (Cert.LibPlainDot.matmul_zero_apply _ ⟨rfl, rfl, rfl, rfl, rfl, rfl⟩ none _ _ p j).trans ?_
      refine Finset.sum_congr rfl fun k _ => ?_
      refine congrArg₂ (· * ·) ?_ ?_
      · exact (truncf_apply (φ := .f32) (ψ := .bf16) _ bitsLt_bf16_f32 _).trans (shapeCast_1ab_ab_apply _ _ p k)
      · exact (truncf_apply (φ := .f32) (ψ := .bf16) _ bitsLt_bf16_f32 _).trans (shapeCast_1ab_ab_apply _ _ k j)
    · refine (broadcastTo_1b_ab_apply _ _ p j).trans ?_
      exact Cert.LibLayoutB.shapeCast_11c_1c_apply _ _ _ j
  · exact (truncf_apply (φ := .f32) (ψ := .bf16) _ bitsLt_bf16_f32 _).trans (shapeCast_1ab_ab_apply _ _ j q)

/-! ## The output block -/

theorem hz3 : (![0, 0, 0] : Fin 3 → Nat) = fun _ => 0 := funext fun a => by fin_cases a <;> rfl

/-- The body's one store is of the whole block, and its loads are of whole blocks: the output block is the payload
    of the input blocks. -/
theorem out1_4_eq (x0 : Vec Ideal S1x200x10000 .f32) (x1 : Vec Ideal S1x10000x64 .f32) (x2 : Vec Ideal S1x1x64 .f32) (x3 : Vec Ideal S1x64x16 .f32) :
    out1_4 x0 x1 x2 x3 = k1_pay1 x0 x1 x2 x3 := by
  unfold out1_4
  rw [View.canon_unit_zero hz3]
  simp only [View.ld_unit_zero (S := S1x200x10000) hz3, View.ld_unit_zero (S := S1x10000x64) hz3,
    View.ld_unit_zero (S := S1x1x64) hz3, View.ld_unit_zero (S := S1x64x16) hz3]

/-! ## The windows' blocks in their arrays -/

/-- The printed index maps, decided over the grid: point `t` is view `t / 50`, row block `t % 50`. -/
theorem idx_facts1 : ∀ t : Fin cfg1.N,
    win1_0.index t (0 : Fin 3) = t.val / 50 ∧ win1_0.index t (1 : Fin 3) = t.val % 50 ∧ win1_0.index t (2 : Fin 3) = 0
    ∧ win1_1.index t (0 : Fin 3) = t.val / 50 ∧ win1_1.index t (1 : Fin 3) = 0 ∧ win1_1.index t (2 : Fin 3) = 0
    ∧ win1_2.index t (0 : Fin 3) = t.val / 50 ∧ win1_2.index t (1 : Fin 3) = 0 ∧ win1_2.index t (2 : Fin 3) = 0
    ∧ win1_3.index t (0 : Fin 3) = t.val / 50 ∧ win1_3.index t (1 : Fin 3) = 0 ∧ win1_3.index t (2 : Fin 3) = 0
    ∧ win1_4.index t (0 : Fin 3) = t.val / 50 ∧ win1_4.index t (1 : Fin 3) = t.val % 50 ∧ win1_4.index t (2 : Fin 3) = 0 :=
  (by decide +kernel : ∀ t : Fin grid1.N, _)

/-- The adjacency block at point `t`: view `t / 50`, rows `200·(t % 50) + p`. -/
theorem iblk1_0_apply (c : Dev nD) (t : Fin cfg1.N) (u : Fin 1) (p : Fin 200) (k : Fin 10000) (v : Fin 2) (r : Fin 10000)
    (hv : v.val = t.val / 50) (hr : r.val = t.val % 50 * 200 + p.val) :
    iblk1 V c 0 t (ix3 u p k) = V c main_arg1 (ix3 v r k) := by
  obtain ⟨e0, e1, e2, -⟩ := idx_facts1 t
  have hu : u.val = 0 := by omega
  show V c main_arg1 (((cfg1.win 0).blk t).view.emb (ix3 u p k)) = V c main_arg1 (ix3 v r k)
  refine congrArg _ (funext fun a => Fin.ext ?_)
  match a with
  | ⟨0, _⟩ => show win1_0.index t (0 : Fin 3) * 1 + 1 * u.val = v.val; omega
  | ⟨1, _⟩ => show win1_0.index t (1 : Fin 3) * 200 + 1 * p.val = r.val; omega
  | ⟨2, _⟩ => show win1_0.index t (2 : Fin 3) * 10000 + 1 * k.val = k.val; omega

/-- The block of `s` at point `t`: view `t / 50`, whole. -/
theorem iblk1_1_apply (c : Dev nD) (t : Fin cfg1.N) (u : Fin 1) (k : Fin 10000) (j : Fin 64) (v : Fin 2) (hv : v.val = t.val / 50) :
    iblk1 V c 1 t (ix3 u k j) = V c main_call0_v14 (ix3 v k j) := by
  obtain ⟨-, -, -, e0, e1, e2, -⟩ := idx_facts1 t
  have hu : u.val = 0 := by omega
  show V c main_call0_v14 (((cfg1.win 1).blk t).view.emb (ix3 u k j)) = V c main_call0_v14 (ix3 v k j)
  refine congrArg _ (funext fun a => Fin.ext ?_)
  match a with
  | ⟨0, _⟩ => show win1_1.index t (0 : Fin 3) * 1 + 1 * u.val = v.val; omega
  | ⟨1, _⟩ => show win1_1.index t (1 : Fin 3) * 10000 + 1 * k.val = k.val; omega
  | ⟨2, _⟩ => show win1_1.index t (2 : Fin 3) * 64 + 1 * j.val = j.val; omega

/-- The block of the first bias at point `t`: view `t / 50`. -/
theorem iblk1_2_apply (c : Dev nD) (t : Fin cfg1.N) (u u' : Fin 1) (j : Fin 64) (v : Fin 2) (hv : v.val = t.val / 50) :
    iblk1 V c 2 t (ix3 u u' j) = V c main_call0_v6 (ix3 v (0 : Fin 1) j) := by
  obtain ⟨-, -, -, -, -, -, e0, e1, e2, -⟩ := idx_facts1 t
  have hu : u.val = 0 := by omega
  have hu' : u'.val = 0 := by omega
  show V c main_call0_v6 (((cfg1.win 2).blk t).view.emb (ix3 u u' j)) = V c main_call0_v6 (ix3 v (0 : Fin 1) j)
  refine congrArg _ (funext fun a => Fin.ext ?_)
  match a with
  | ⟨0, _⟩ => show win1_2.index t (0 : Fin 3) * 1 + 1 * u.val = v.val; omega
  | ⟨1, _⟩ => show win1_2.index t (1 : Fin 3) * 1 + 1 * u'.val = 0; omega
  | ⟨2, _⟩ => show win1_2.index t (2 : Fin 3) * 64 + 1 * j.val = j.val; omega

/-- The block of the second weight at point `t`: view `t / 50`, whole. -/
theorem iblk1_3_apply (c : Dev nD) (t : Fin cfg1.N) (u : Fin 1) (j : Fin 64) (q : Fin 16) (v : Fin 2) (hv : v.val = t.val / 50) :
    iblk1 V c 3 t (ix3 u j q) = V c main_call0_v9 (ix3 v j q) := by
  obtain ⟨-, -, -, -, -, -, -, -, -, e0, e1, e2, -⟩ := idx_facts1 t
  have hu : u.val = 0 := by omega
  show V c main_call0_v9 (((cfg1.win 3).blk t).view.emb (ix3 u j q)) = V c main_call0_v9 (ix3 v j q)
  refine congrArg _ (funext fun a => Fin.ext ?_)
  match a with
  | ⟨0, _⟩ => show win1_3.index t (0 : Fin 3) * 1 + 1 * u.val = v.val; omega
  | ⟨1, _⟩ => show win1_3.index t (1 : Fin 3) * 64 + 1 * j.val = j.val; omega
  | ⟨2, _⟩ => show win1_3.index t (2 : Fin 3) * 16 + 1 * q.val = q.val; omega

/-! ## What a point writes back -/

/-- At point `t` the body leaves, at each index of the output block, `G1` at that index's place in the array. -/
theorem flushed1_point (c : Dev nD) (t : Fin cfg1.N) (y : S1x200x16.Idx) :
    out1_4 (iblk1 V c 0 t) (iblk1 V c 1 t) (iblk1 V c 2 t) (iblk1 V c 3 t) y
      = G1 (V c main_arg1) (V c main_call0_v14) (V c main_call0_v6) (V c main_call0_v9) (((cfg1.win 4).blk t).view.emb y) := by
  obtain ⟨u, p, q, rfl⟩ : ∃ (u : Fin 1) (p : Fin 200) (q : Fin 16), y = ix3 u p q := ⟨y 0, y 1, y 2, eq_ix3 y⟩
  obtain ⟨-, -, -, -, -, -, -, -, -, -, -, -, e0, e1, e2⟩ := idx_facts1 t
  have ht : t.val < 100 := t.isLt
  have hu : u.val = 0 := by omega
  have hv : t.val / 50 < 2 := by omega
  have hr : t.val % 50 * 200 + p.val < 10000 := by omega
  have hi : ((cfg1.win 4).blk t).view.emb (ix3 u p q)
      = (ix3 (⟨t.val / 50, hv⟩ : Fin 2) (⟨t.val % 50 * 200 + p.val, hr⟩ : Fin 10000) q : S2x10000x16.Idx) := funext fun a => Fin.ext (by
    match a with
    | ⟨0, _⟩ => show win1_4.index t (0 : Fin 3) * 1 + 1 * u.val = t.val / 50; omega
    | ⟨1, _⟩ => show win1_4.index t (1 : Fin 3) * 200 + 1 * p.val = t.val % 50 * 200 + p.val; omega
    | ⟨2, _⟩ => show win1_4.index t (2 : Fin 3) * 16 + 1 * q.val = q.val; omega)
  rw [hi, G1_apply, out1_4_eq, pay1_apply]
  unfold g1
  refine Finset.sum_congr rfl fun j _ => ?_
  rw [iblk1_2_apply V c t _ _ j ⟨t.val / 50, hv⟩ rfl, iblk1_3_apply V c t _ j q ⟨t.val / 50, hv⟩ rfl]
  refine congrArg₂ (· * ·) (congrArg₂ max (congrArg₂ (· + ·) ?_ rfl) rfl) rfl
  refine Finset.sum_congr rfl fun k _ => ?_
  rw [iblk1_0_apply V c t _ p k ⟨t.val / 50, hv⟩ ⟨t.val % 50 * 200 + p.val, hr⟩ rfl rfl, iblk1_1_apply V c t _ k j ⟨t.val / 50, hv⟩ rfl]

/-- Point `t` writes back block `t` of `G1` of the arrays the region reads. -/
theorem flushed1_eq (c : Dev nD) (t : Fin cfg1.N) :
    (dat1 V c).flushed 4 t
      = ((cfg1.win 4).blk t).view.read (Elt Ideal) (G1 (V c main_arg1) (V c main_call0_v14) (V c main_call0_v6) (V c main_call0_v9)) := by
  show (cfg1.win 4).cut (grid1.coords t) ((dat1 V c).after 4 t) = _
  rw [after1_4]
  funext y
  exact flushed1_point V c t y

/-! ## The blocks tile the array -/

/-- An index of the array is in point `t`'s block iff each coordinate is in the block's range on its axis. -/
theorem mem_blk1 (t : Fin cfg1.N) (i : S2x10000x16.Idx) :
    i ∈ ((cfg1.win 4).blk t).view.set ↔ ∀ a : Fin 3, win1_4.index t a * S1x200x16.size a ≤ (i a).val ∧ (i a).val < win1_4.index t a * S1x200x16.size a + S1x200x16.size a := by
  show i ∈ ((View.whole main_call0_v15).slice (win1_4.rect t)).set ↔ _
  rw [View.set_slice_whole, Rect.mem_set_unit]
  exact Iff.rfl

/-- Row `r` of view `v` is in the block of point `50·v + r / 200`, which is written back. -/
theorem cover1 (i : S2x10000x16.Idx) : ∃ t : Fin cfg1.N, (cfg1.win 4).flush t = true ∧ i ∈ ((cfg1.win 4).blk t).view.set := by
  have h0 : (i 0).val < 2 := (i 0).isLt
  have h1 : (i 1).val < 10000 := (i 1).isLt
  have h2 : (i 2).val < 16 := (i 2).isLt
  have hN : (i 0).val * 50 + (i 1).val / 200 < cfg1.N := by show (i 0).val * 50 + (i 1).val / 200 < 100; omega
  refine ⟨⟨(i 0).val * 50 + (i 1).val / 200, hN⟩, flush1_4 _, ?_⟩
  rw [mem_blk1]
  obtain ⟨-, -, -, -, -, -, -, -, -, -, -, -, e0, e1, e2⟩ := idx_facts1 ⟨(i 0).val * 50 + (i 1).val / 200, hN⟩
  have e0' : win1_4.index ⟨(i 0).val * 50 + (i 1).val / 200, hN⟩ (0 : Fin 3) = ((i 0).val * 50 + (i 1).val / 200) / 50 := e0
  have e1' : win1_4.index ⟨(i 0).val * 50 + (i 1).val / 200, hN⟩ (1 : Fin 3) = ((i 0).val * 50 + (i 1).val / 200) % 50 := e1
  intro a
  match a with
  | ⟨0, _⟩ => show win1_4.index ⟨(i 0).val * 50 + (i 1).val / 200, hN⟩ (0 : Fin 3) * 1 ≤ (i 0).val ∧ (i 0).val < win1_4.index ⟨(i 0).val * 50 + (i 1).val / 200, hN⟩ (0 : Fin 3) * 1 + 1; omega
  | ⟨1, _⟩ => show win1_4.index ⟨(i 0).val * 50 + (i 1).val / 200, hN⟩ (1 : Fin 3) * 200 ≤ (i 1).val ∧ (i 1).val < win1_4.index ⟨(i 0).val * 50 + (i 1).val / 200, hN⟩ (1 : Fin 3) * 200 + 200; omega
  | ⟨2, _⟩ => show win1_4.index ⟨(i 0).val * 50 + (i 1).val / 200, hN⟩ (2 : Fin 3) * 16 ≤ (i 2).val ∧ (i 2).val < win1_4.index ⟨(i 0).val * 50 + (i 1).val / 200, hN⟩ (2 : Fin 3) * 16 + 16; omega

/-! ## The array after the region -/

/-- Region 1 leaves `G1` of the arrays it reads in its output array. -/
theorem final1 (c : Dev nD) :
    (dat1 V c).arrAt 4 cfg1.N = G1 (V c main_arg1) (V c main_call0_v14) (V c main_call0_v6) (V c main_call0_v9) :=
  (dat1 V c).arrAt_eq_of_cover 4 (G1 (V c main_arg1) (V c main_call0_v14) (V c main_call0_v6) (V c main_call0_v9))
    (fun t _ => flushed1_eq V c t) cover1

end Cert.KernelIdeal.Val

end
-- ==== Proof.Val.V2.lean ====
import proofs.«178646_g43207370998080_cont_sun_c4_156_2_alg».proof.Proof.KI.R2
import proofs.«178646_g43207370998080_cont_sun_c4_156_2_alg».proof.Proof.Val.G
import Idealize.ShloMosaic.Lib.Pipeline.Value
import Idealize.ShloMosaic.Lib.ValueIdx
import Idealize.ShloMosaic.Lib.ValueLayout
import Idealize.ShloMosaic.PureOps.Ideal.Laws
import proofs.«178646_g43207370998080_cont_sun_c4_156_2_alg».proof.Proof.LibPlainDot
import proofs.«178646_g43207370998080_cont_sun_c4_156_2_alg».proof.Proof.LibLayoutB

/-! # What the third kernel call leaves in its output array, on the extended reals

Row r = 200·i + p of the output is written back once, after the point (i, 1), and holds
((Σₖ a[0, r, k] · t[0, k, q]) + (b[0, 0, q] + b[1, 0, q])) + Σₖ a[1, r, k] · t[1, k, q]:
the first summand and the biases are stored at (i, 0), the second is added at (i, 1). -/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

/-! ## The payloads at an entry -/

/-- The product of the adjacency block with the feature slab, at an entry. -/
theorem k2_pay1_apply (v0 : Vec Ideal S1x200x10000 .f32) (v4 : Vec Ideal S1x10000x16 .bf16) (p : Fin 200) (q : Fin 16) :
    k2_pay1 v0 v4 (ix2 p q) = ∑ k : Fin 10000, v0 (ix3 (0 : Fin 1) p k) * v4 (ix3 (0 : Fin 1) k q) := by
  unfold k2_pay1
  refine (Cert.LibPlainDot.matmul_zero_apply dot_S200x10000_S10000x16_S200x16_1_0_0_1_n_n ⟨rfl, rfl, rfl, rfl, rfl, rfl⟩ none _ _ p q).trans ?_
  refine Finset.sum_congr rfl fun k _ => ?_
  rw [truncf_apply, shapeCast_1ab_ab_apply, shapeCast_1ab_ab_apply]

/-- At v = 0: the product plus the two biases. -/
theorem k2_pay2_apply (v0 : Vec Ideal S1x200x10000 .f32) (v4 : Vec Ideal S1x10000x16 .bf16) (v13 v15 : Vec Ideal S1x1x16 .f32)
    (p : Fin 200) (q : Fin 16) :
    k2_pay2 v0 v4 v13 v15 (ix2 p q)
      = (∑ k : Fin 10000, v0 (ix3 (0 : Fin 1) p k) * v4 (ix3 (0 : Fin 1) k q))
        + (v13 (ix3 (0 : Fin 1) (0 : Fin 1) q) + v15 (ix3 (0 : Fin 1) (0 : Fin 1) q)) := by
  unfold k2_pay2
  rw [addf_apply, k2_pay1_apply, broadcastTo_1b_ab_apply, shapeCast_a_1a_apply, addf_apply]
  congr 2
  · exact shapeCast_apply _ _ _ _ (by rw [Shape.rowMajor_val_three, Shape.rowMajor_val_one]; show (0 * 1 + 0) * 16 + q.val = q.val; omega)
  · exact shapeCast_apply _ _ _ _ (by rw [Shape.rowMajor_val_three, Shape.rowMajor_val_one]; show (0 * 1 + 0) * 16 + q.val = q.val; omega)

/-- At v = 1: what the buffer held plus the product. -/
theorem k2_pay3_apply (v0 : Vec Ideal S1x200x10000 .f32) (v4 : Vec Ideal S1x10000x16 .bf16) (prev : Vec Ideal S200x16 .f32)
    (p : Fin 200) (q : Fin 16) :
    k2_pay3 v0 v4 prev (ix2 p q) = prev (ix2 p q) + ∑ k : Fin 10000, v0 (ix3 (0 : Fin 1) p k) * v4 (ix3 (0 : Fin 1) k q) := by
  unfold k2_pay3
  rw [addf_apply, k2_pay1_apply, shapeCast_self]

/-! ## The block's buffer at an entry, from the blocks it is computed from -/

theorem hz2_r2 : (![0, 0] : Fin 2 → Nat) = fun _ => 0 := funext fun a => by fin_cases a <;> rfl
theorem hz3_r2 : (![0, 0, 0] : Fin 3 → Nat) = fun _ => 0 := funext fun a => by fin_cases a <;> rfl

/-- The slab the body loads of the feature array is the slab at the offset's first coordinate. -/
theorem ld2_slab (x1 : Vec Ideal S2x10000x16 .bf16) (off : Fin 3 → Nat) (hoff : ∀ a, off a + S1x10000x16.size a ≤ S2x10000x16.size a)
    (v : Fin 2) (h0 : off 0 = v.val) (h1 : off 1 = 0) (h2 : off 2 = 0) (k : Fin 10000) (q : Fin 16) :
    View.ld x1 (r2_1 off hoff) (ix3 (0 : Fin 1) k q) = x1 (ix3 v k q) := by
  show x1 ((r2_1 off hoff).idx (ix3 (0 : Fin 1) k q)) = x1 (ix3 v k q)
  congr 1
  funext a; apply Fin.ext
  match a with
  | ⟨0, _⟩ => show off 0 + 1 * 0 = v.val; omega
  | ⟨1, _⟩ => show off 1 + 1 * k.val = k.val; omega
  | ⟨2, _⟩ => show off 2 + 1 * q.val = q.val; omega

/-- The two bias rows the body loads. -/
theorem ld2_b0 (x2 : Vec Ideal S2x1x16 .f32) (q : Fin 16) :
    View.ld x2 r2_b0 (ix3 (0 : Fin 1) (0 : Fin 1) q) = x2 (ix3 (0 : Fin 2) (0 : Fin 1) q) := by
  show x2 (r2_b0.idx (ix3 (0 : Fin 1) (0 : Fin 1) q)) = x2 (ix3 (0 : Fin 2) (0 : Fin 1) q)
  congr 1
  funext a; apply Fin.ext
  match a with
  | ⟨0, _⟩ => rfl
  | ⟨1, _⟩ => rfl
  | ⟨2, _⟩ => show 0 + 1 * q.val = q.val; omega
theorem ld2_b1 (x2 : Vec Ideal S2x1x16 .f32) (q : Fin 16) :
    View.ld x2 r2_b1 (ix3 (0 : Fin 1) (0 : Fin 1) q) = x2 (ix3 (1 : Fin 2) (0 : Fin 1) q) := by
  show x2 (r2_b1.idx (ix3 (0 : Fin 1) (0 : Fin 1) q)) = x2 (ix3 (1 : Fin 2) (0 : Fin 1) q)
  congr 1
  funext a; apply Fin.ext
  match a with
  | ⟨0, _⟩ => rfl
  | ⟨1, _⟩ => rfl
  | ⟨2, _⟩ => show 0 + 1 * q.val = q.val; omega

/-- What a point with v = 0 leaves, at an entry. -/
theorem out2_A_apply (x0 : Vec Ideal S1x200x10000 .f32) (x1 : Vec Ideal S2x10000x16 .bf16) (x2 : Vec Ideal S2x1x16 .f32)
    (off : Fin 3 → Nat) (hoff : ∀ a, off a + S1x10000x16.size a ≤ S2x10000x16.size a)
    (v : Fin 2) (h0 : off 0 = v.val) (h1 : off 1 = 0) (h2 : off 2 = 0) (p : Fin 200) (q : Fin 16) :
    out2_A x0 x1 x2 off hoff (ix2 p q)
      = (∑ k : Fin 10000, x0 (ix3 (0 : Fin 1) p k) * x1 (ix3 v k q))
        + (x2 (ix3 (0 : Fin 2) (0 : Fin 1) q) + x2 (ix3 (1 : Fin 2) (0 : Fin 1) q)) := by
  unfold out2_A
  rw [View.canon_unit_zero hz2_r2, k2_pay2_apply, View.ld_unit_zero (S := S1x200x10000) hz3_r2, ld2_b0, ld2_b1]
  congr 1
  exact Finset.sum_congr rfl fun k _ => congrArg _ (ld2_slab x1 off hoff v h0 h1 h2 k q)

/-- What a point with v = 1 leaves, at an entry. -/
theorem out2_B_apply (x0 : Vec Ideal S1x200x10000 .f32) (x1 : Vec Ideal S2x10000x16 .bf16)
    (off : Fin 3 → Nat) (hoff : ∀ a, off a + S1x10000x16.size a ≤ S2x10000x16.size a) (prev : Vec Ideal S200x16 .f32)
    (v : Fin 2) (h0 : off 0 = v.val) (h1 : off 1 = 0) (h2 : off 2 = 0) (p : Fin 200) (q : Fin 16) :
    out2_B x0 x1 off hoff prev (ix2 p q)
      = prev (ix2 p q) + ∑ k : Fin 10000, x0 (ix3 (0 : Fin 1) p k) * x1 (ix3 v k q) := by
  unfold out2_B
  rw [View.canon_unit_zero hz2_r2, k2_pay3_apply, View.ld_unit_zero (S := S1x200x10000) hz3_r2, View.ld_unit_zero (S := S200x16) hz2_r2]
  congr 1
  exact Finset.sum_congr rfl fun k _ => congrArg _ (ld2_slab x1 off hoff v h0 h1 h2 k q)

/-! ## The blocks at a point, as entries of the arrays -/

variable (V : (c : Dev nD) → (b : Ref sig .tc) → Buf (Elt Ideal) ((c : Thread nD τ).loc b))

/-- The index maps and the slab offset, decided over the grid: at the point t = 2·i + v the adjacency block is block
    (v, i, 0), the feature and bias windows are whole, the output block is block (i, 0), the slab loaded is v. -/
theorem idx_facts2 : ∀ t : Fin cfg2.N,
    win2_0.index t (0 : Fin 3) = t.val % 2 ∧ win2_0.index t (1 : Fin 3) = t.val / 2 ∧ win2_0.index t (2 : Fin 3) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 2) = t.val / 2 ∧ win2_3.index t (1 : Fin 2) = 0
    ∧ k2_off1 (grid2.coords t) (0 : Fin 3) = t.val % 2 ∧ k2_off1 (grid2.coords t) (1 : Fin 3) = 0 ∧ k2_off1 (grid2.coords t) (2 : Fin 3) = 0 :=
  (by decide +kernel : ∀ t : Fin grid2.N, _)

/-- The adjacency block at the point t = 2·i + v is rows 200·i … of view v. -/
theorem iblk2_0_apply (c : Dev nD) (t : Fin cfg2.N) (p : Fin 200) (k : Fin 10000) (v : Fin 2) (r : Fin 10000)
    (hv : v.val = t.val % 2) (hr : r.val = t.val / 2 * 200 + p.val) :
    (iblk2 V c 0 t : Vec Ideal S1x200x10000 .f32) (ix3 (0 : Fin 1) p k) = (V c main_arg1 : S2x10000x10000.Idx → EReal) (ix3 v r k) := by
  obtain ⟨e0, e1, e2, -⟩ := idx_facts2 t
  unfold iblk2
  rw [View.read_apply]
  show V c main_arg1 _ = V c main_arg1 _
  congr 1
  funext a; apply Fin.ext
  match a with
  | ⟨0, _⟩ => show win2_0.index t (0 : Fin 3) * 1 + 1 * 0 = v.val; omega
  | ⟨1, _⟩ => show win2_0.index t (1 : Fin 3) * 200 + 1 * p.val = r.val; omega
  | ⟨2, _⟩ => show win2_0.index t (2 : Fin 3) * 10000 + 1 * k.val = k.val; omega

/-- The feature window's block is the whole array. -/
theorem iblk2_1_apply (c : Dev nD) (t : Fin cfg2.N) (v : Fin 2) (k : Fin 10000) (q : Fin 16) :
    (iblk2 V c 1 t : Vec Ideal S2x10000x16 .bf16) (ix3 v k q) = (V c main_call0_v15 : S2x10000x16.Idx → EReal) (ix3 v k q) := by
  obtain ⟨-, -, -, e0, e1, e2, -⟩ := idx_facts2 t
  unfold iblk2
  rw [View.read_apply]
  show V c main_call0_v15 _ = V c main_call0_v15 _
  congr 1
  funext a; apply Fin.ext
  match a with
  | ⟨0, _⟩ => show win2_1.index t (0 : Fin 3) * 2 + 1 * v.val = v.val; omega
  | ⟨1, _⟩ => show win2_1.index t (1 : Fin 3) * 10000 + 1 * k.val = k.val; omega
  | ⟨2, _⟩ => show win2_1.index t (2 : Fin 3) * 16 + 1 * q.val = q.val; omega

/-- The bias window's block is the whole array. -/
theorem iblk2_2_apply (c : Dev nD) (t : Fin cfg2.N) (v : Fin 2) (q : Fin 16) :
    (iblk2 V c 2 t : Vec Ideal S2x1x16 .f32) (ix3 v (0 : Fin 1) q) = (V c main_call0_v13 : S2x1x16.Idx → EReal) (ix3 v (0 : Fin 1) q) := by
  obtain ⟨-, -, -, -, -, -, e0, e1, e2, -⟩ := idx_facts2 t
  unfold iblk2
  rw [View.read_apply]
  show V c main_call0_v13 _ = V c main_call0_v13 _
  congr 1
  funext a; apply Fin.ext
  match a with
  | ⟨0, _⟩ => show win2_2.index t (0 : Fin 3) * 2 + 1 * v.val = v.val; omega
  | ⟨1, _⟩ => show win2_2.index t (1 : Fin 3) * 1 + 1 * 0 = 0; omega
  | ⟨2, _⟩ => show win2_2.index t (2 : Fin 3) * 16 + 1 * q.val = q.val; omega

/-- The output block at the point t = 2·i + v is rows 200·i … of the output array. -/
theorem read_blk2_3 (c : Dev nD) (t : Fin cfg2.N) (G : S10000x16.Idx → EReal) (p : Fin 200) (q : Fin 16) (r : Fin 10000)
    (hr : r.val = t.val / 2 * 200 + p.val) :
    (((cfg2.win 3).blk t).view.read (Elt Ideal) (G : Buf (Elt Ideal) ((cfg2.win 3).arr.view.loc (c.tc : Thread nD τ))) : Vec Ideal S200x16 .f32) (ix2 p q) = G (ix2 r q) := by
  obtain ⟨-, -, -, -, -, -, -, -, -, e0, e1, -⟩ := idx_facts2 t
  rw [View.read_apply]
  show G _ = G _
  congr 1
  funext a; apply Fin.ext
  match a with
  | ⟨0, _⟩ => show win2_3.index t (0 : Fin 2) * 200 + 1 * p.val = r.val; omega
  | ⟨1, _⟩ => show win2_3.index t (1 : Fin 2) * 16 + 1 * q.val = q.val; omega

/-! ## What an odd point writes back, and the array after the run -/

/-- What the point (i, 1) writes back is block i of the closed form of the arrays as the call finds them. -/
theorem flushed2_eq (c : Dev nD) (t : Fin cfg2.N) (h : t.val % 2 = 1) :
    (dat2 V c).flushed 3 t
      = ((cfg2.win 3).blk t).view.read (Elt Ideal) (G2 (V c main_arg1) (V c main_call0_v15) (V c main_call0_v13)) := by
  show (cfg2.win 3).cut (grid2.coords t) ((dat2 V c).after 3 t) = _
  rw [after2_3_odd V c t h]
  unfold o2_A
  funext j
  obtain ⟨p, q, rfl⟩ : ∃ (p : Fin 200) (q : Fin 16), j = ix2 p q := ⟨j 0, j 1, eq_ix2 j⟩
  have hN : t.val < 100 := lt_of_lt_of_eq t.isLt (show cfg2.N = 100 from N_2)
  have hp : p.val < 200 := p.isLt
  obtain ⟨-, -, -, -, -, -, -, -, -, -, -, o0, o1, o2⟩ := idx_facts2 t
  obtain ⟨-, -, -, -, -, -, -, -, -, -, -, o0', o1', o2'⟩ := idx_facts2 ⟨t.val - 1, Nat.lt_of_le_of_lt (Nat.sub_le _ _) t.isLt⟩
  have hr : t.val / 2 * 200 + p.val < 10000 := by omega
  rw [read_blk2_3 c t _ p q ⟨t.val / 2 * 200 + p.val, hr⟩ rfl, G2_apply]
  show out2_B _ _ _ _ _ (ix2 p q) = _
  rw [out2_B_apply _ _ _ _ _ (1 : Fin 2) (by rw [o0]; exact h) o1 o2,
    out2_A_apply _ _ _ _ _ (0 : Fin 2) (by rw [o0']; show (t.val - 1) % 2 = 0; omega) o1' o2']
  unfold g2
  simp only [iblk2_1_apply, iblk2_2_apply]
  congr 1
  · congr 1
    refine Finset.sum_congr rfl fun k _ => ?_
    rw [iblk2_0_apply V c ⟨t.val - 1, _⟩ p k (0 : Fin 2) ⟨t.val / 2 * 200 + p.val, hr⟩ (by show 0 = (t.val - 1) % 2; omega)
      (by show t.val / 2 * 200 + p.val = (t.val - 1) / 2 * 200 + p.val; omega)]
  · refine Finset.sum_congr rfl fun k _ => ?_
    rw [iblk2_0_apply V c t p k (1 : Fin 2) ⟨t.val / 2 * 200 + p.val, hr⟩ (by show 1 = t.val % 2; omega) rfl]

/-- An entry of the output array is in the block of the point t iff each coordinate is in the block's range. -/
theorem mem_blk2 (t : Fin cfg2.N) (i : S10000x16.Idx) :
    i ∈ ((cfg2.win 3).blk t).view.set ↔ ∀ a : Fin 2, win2_3.index t a * S200x16.size a ≤ (i a).val ∧ (i a).val < win2_3.index t a * S200x16.size a + S200x16.size a := by
  show i ∈ ((View.whole main_v0).slice (win2_3.rect t)).set ↔ _
  rw [View.set_slice_whole, Rect.mem_set_unit]
  exact Iff.rfl

/-- Row r of the output array is in the block the point (r / 200, 1) writes back. -/
theorem cover2 (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  have hn : 2 * ((i 0).val / 200) + 1 < cfg2.N := lt_of_lt_of_eq (by omega : 2 * ((i 0).val / 200) + 1 < 100) N_2.symm
  refine ⟨⟨2 * ((i 0).val / 200) + 1, hn⟩, (flush2_3 _).mpr (by show (2 * ((i 0).val / 200) + 1) % 2 = 1; omega), ?_⟩
  rw [mem_blk2]
  obtain ⟨-, -, -, -, -, -, -, -, -, e0, e1, -⟩ := idx_facts2 ⟨2 * ((i 0).val / 200) + 1, hn⟩
  have e0' : win2_3.index ⟨2 * ((i 0).val / 200) + 1, hn⟩ (0 : Fin 2) = (2 * ((i 0).val / 200) + 1) / 2 := e0
  intro a
  match a with
  | ⟨0, _⟩ => show win2_3.index _ (0 : Fin 2) * 200 ≤ (i 0).val ∧ (i 0).val < win2_3.index _ (0 : Fin 2) * 200 + 200; rw [e0']; omega
  | ⟨1, _⟩ => show win2_3.index _ (1 : Fin 2) * 16 ≤ (i 1).val ∧ (i 1).val < win2_3.index _ (1 : Fin 2) * 16 + 16; rw [e1]; omega

/-- The output array after the run is the closed form of the arrays as the call finds them. -/
theorem final2 (c : Dev nD) :
    (dat2 V c).arrAt 3 cfg2.N = G2 (V c main_arg1) (V c main_call0_v15) (V c main_call0_v13) :=
  (dat2 V c).arrAt_eq_of_cover 3 (G2 (V c main_arg1) (V c main_call0_v15) (V c main_call0_v13))
    (fun t ht => flushed2_eq V c t ((flush2_3 t).mp ht)) cover2

end Cert.KernelIdeal.Val

end
-- ==== Proof.Val.Host.lean ====
/-
  What the host operations before the kernel regions leave in the stacked weight and bias arrays, entry by entry.

  The two views' first-layer weights are stacked along a new leading axis (each broadcast to a leading extent 1, then
  joined along axis 0), so slab v of the stacked array is view v's matrix; likewise the second-layer weights. The
  biases are stacked to [2, n] the same way and then reshaped to [2, 1, n]: the reshape's row-major arithmetic sends
  (v, 0, j) to (v, j).
-/
import proofs.«178646_g43207370998080_cont_sun_c4_156_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.ShloMosaic.StableHlo

variable (m : (ℓ : Loc nD τ sig) → Buf (Elt Ideal) ℓ) (c : Dev nD)

/-- Core c's unscoped buffers after the host operations. -/
abbrev H1 : Valuation τ sig (Elt Ideal) := StableHlo.after (hostOps0 (F := Ideal)) (fun b => m ((c : Dev nD), b))

/-! ## The first-layer weights and biases -/

/-- The stacked first-layer weights as the host operations' term of the two arguments. -/
theorem e_v2 :
    (H1 m c (Proc.devRef .tc main_call0_v2) : S2x128x64.Idx → EReal)
      = concatenate S2x128x64 0
          [⟨S1x128x64, broadcastInDim S1x128x64 ![1, 2] bcast_S128x64_S1x128x64_1_2 (m ((c : Thread nD τ).loc main_arg2))⟩,
           ⟨S1x128x64, broadcastInDim S1x128x64 ![1, 2] bcast_S128x64_S1x128x64_1_2 (m ((c : Thread nD τ).loc main_arg6))⟩]
          concatenates_S1x128x64_S1x128x64_S2x128x64_d0 := by
  dsimp only [H1, hostOps0]
  after_results
  rfl

/-- Slab 0 of the stacked first-layer weights is view 0's matrix. -/
theorem host_w1_0 (k : Fin 128) (j : Fin 64) :
    H1 m c (Proc.devRef .tc main_call0_v2) (ix3 (0 : Fin 2) k j) = m ((c : Thread nD τ).loc main_arg2) (ix2 k j) := by
  refine (congrFun (e_v2 m c) (ix3 (0 : Fin 2) k j)).trans ?_
  refine (concatenate_pair_apply_left (s₁ := S1x128x64) (s₂ := S1x128x64) (0 : Fin S2x128x64.rank) _ _ _
    (ix3 (0 : Fin 2) k j) rfl (ix3 (0 : Fin 1) k j) (fun b => ?_)).trans ?_
  · match b with
    | ⟨0, _⟩ => rfl
    | ⟨1, _⟩ => rfl
    | ⟨2, _⟩ => rfl
  · refine broadcastInDim_apply _ _ _ _ (ix2 k j) (fun a => ?_)
    match a with
    | ⟨0, _⟩ => show k.val = if (128 : Nat) = 1 then 0 else k.val; rw [if_neg (by decide)]
    | ⟨1, _⟩ => show j.val = if (64 : Nat) = 1 then 0 else j.val; rw [if_neg (by decide)]

/-- Slab 1 of the stacked first-layer weights is view 1's matrix. -/
theorem host_w1_1 (k : Fin 128) (j : Fin 64) :
    H1 m c (Proc.devRef .tc main_call0_v2) (ix3 (1 : Fin 2) k j) = m ((c : Thread nD τ).loc main_arg6) (ix2 k j) := by
  refine (congrFun (e_v2 m c) (ix3 (1 : Fin 2) k j)).trans ?_
  refine (concatenate_pair_apply_right (s₁ := S1x128x64) (s₂ := S1x128x64) (0 : Fin S2x128x64.rank) _ _ _
    (ix3 (1 : Fin 2) k j) rfl rfl (ix3 (0 : Fin 1) k j) (fun b => ?_) rfl).trans ?_
  · match b with
    | ⟨0, _⟩ => exact fun hne => absurd rfl hne
    | ⟨1, _⟩ => exact fun _ => rfl
    | ⟨2, _⟩ => exact fun _ => rfl
  · refine broadcastInDim_apply _ _ _ _ (ix2 k j) (fun a => ?_)
    match a with
    | ⟨0, _⟩ => show k.val = if (128 : Nat) = 1 then 0 else k.val; rw [if_neg (by decide)]
    | ⟨1, _⟩ => show j.val = if (64 : Nat) = 1 then 0 else j.val; rw [if_neg (by decide)]

/-- The stacked first-layer biases as the host operations' term of the two arguments. -/
theorem e_v6 :
    (H1 m c (Proc.devRef .tc main_call0_v6) : S2x1x64.Idx → EReal)
      = shapeCast S2x1x64 (concatenate S2x64 0
          [⟨S1x64, broadcastInDim S1x64 ![1] bcast_S64_S1x64_1 (m ((c : Thread nD τ).loc main_arg3))⟩,
           ⟨S1x64, broadcastInDim S1x64 ![1] bcast_S64_S1x64_1 (m ((c : Thread nD τ).loc main_arg7))⟩]
          concatenates_S1x64_S1x64_S2x64_d0) shapeCasts_S2x64_S2x1x64 := by
  dsimp only [H1, hostOps0]
  after_results
  rfl

/-- Row 0 of the stacked first-layer biases is view 0's vector. -/
theorem host_b1_0 (j : Fin 64) :
    H1 m c (Proc.devRef .tc main_call0_v6) (ix3 (0 : Fin 2) (0 : Fin 1) j) = m ((c : Thread nD τ).loc main_arg3) (ix1 j) := by
  refine (congrFun (e_v6 m c) (ix3 (0 : Fin 2) (0 : Fin 1) j)).trans ?_
  refine (shapeCast_apply _ shapeCasts_S2x64_S2x1x64 (ix3 (0 : Fin 2) (0 : Fin 1) j) (ix2 (0 : Fin 2) j) ?_).trans ?_
  · rewrite [Shape.rowMajor_val_two, Shape.rowMajor_val_three]
    show 0 * 64 + j.val = (0 * 1 + 0) * 64 + j.val
    omega
  refine (concatenate_pair_apply_left (s₁ := S1x64) (s₂ := S1x64) (0 : Fin S2x64.rank) _ _ _
    (ix2 (0 : Fin 2) j) rfl (ix2 (0 : Fin 1) j) (fun b => ?_)).trans ?_
  · match b with
    | ⟨0, _⟩ => rfl
    | ⟨1, _⟩ => rfl
  · refine broadcastInDim_apply _ _ _ _ (ix1 j) (fun a => ?_)
    match a with
    | ⟨0, _⟩ => show j.val = if (64 : Nat) = 1 then 0 else j.val; rw [if_neg (by decide)]

/-- Row 1 of the stacked first-layer biases is view 1's vector. -/
theorem host_b1_1 (j : Fin 64) :
    H1 m c (Proc.devRef .tc main_call0_v6) (ix3 (1 : Fin 2) (0 : Fin 1) j) = m ((c : Thread nD τ).loc main_arg7) (ix1 j) := by
  refine (congrFun (e_v6 m c) (ix3 (1 : Fin 2) (0 : Fin 1) j)).trans ?_
  refine (shapeCast_apply _ shapeCasts_S2x64_S2x1x64 (ix3 (1 : Fin 2) (0 : Fin 1) j) (ix2 (1 : Fin 2) j) ?_).trans ?_
  · rewrite [Shape.rowMajor_val_two, Shape.rowMajor_val_three]
    show 1 * 64 + j.val = (1 * 1 + 0) * 64 + j.val
    omega
  refine (concatenate_pair_apply_right (s₁ := S1x64) (s₂ := S1x64) (0 : Fin S2x64.rank) _ _ _
    (ix2 (1 : Fin 2) j) rfl rfl (ix2 (0 : Fin 1) j) (fun b => ?_) rfl).trans ?_
  · match b with
    | ⟨0, _⟩ => exact fun hne => absurd rfl hne
    | ⟨1, _⟩ => exact fun _ => rfl
  · refine broadcastInDim_apply _ _ _ _ (ix1 j) (fun a => ?_)
    match a with
    | ⟨0, _⟩ => show j.val = if (64 : Nat) = 1 then 0 else j.val; rw [if_neg (by decide)]

/-! ## The second-layer weights and biases -/

/-- The stacked second-layer weights as the host operations' term of the two arguments. -/
theorem e_v9 :
    (H1 m c (Proc.devRef .tc main_call0_v9) : S2x64x16.Idx → EReal)
      = concatenate S2x64x16 0
          [⟨S1x64x16, broadcastInDim S1x64x16 ![1, 2] bcast_S64x16_S1x64x16_1_2 (m ((c : Thread nD τ).loc main_arg4))⟩,
           ⟨S1x64x16, broadcastInDim S1x64x16 ![1, 2] bcast_S64x16_S1x64x16_1_2 (m ((c : Thread nD τ).loc main_arg8))⟩]
          concatenates_S1x64x16_S1x64x16_S2x64x16_d0 := by
  dsimp only [H1, hostOps0]
  after_results
  rfl

/-- Slab 0 of the stacked second-layer weights is view 0's matrix. -/
theorem host_w2_0 (j : Fin 64) (q : Fin 16) :
    H1 m c (Proc.devRef .tc main_call0_v9) (ix3 (0 : Fin 2) j q) = m ((c : Thread nD τ).loc main_arg4) (ix2 j q) := by
  refine (congrFun (e_v9 m c) (ix3 (0 : Fin 2) j q)).trans ?_
  refine (concatenate_pair_apply_left (s₁ := S1x64x16) (s₂ := S1x64x16) (0 : Fin S2x64x16.rank) _ _ _
    (ix3 (0 : Fin 2) j q) rfl (ix3 (0 : Fin 1) j q) (fun b => ?_)).trans ?_
  · match b with
    | ⟨0, _⟩ => rfl
    | ⟨1, _⟩ => rfl
    | ⟨2, _⟩ => rfl
  · refine broadcastInDim_apply _ _ _ _ (ix2 j q) (fun a => ?_)
    match a with
    | ⟨0, _⟩ => show j.val = if (64 : Nat) = 1 then 0 else j.val; rw [if_neg (by decide)]
    | ⟨1, _⟩ => show q.val = if (16 : Nat) = 1 then 0 else q.val; rw [if_neg (by decide)]

/-- Slab 1 of the stacked second-layer weights is view 1's matrix. -/
theorem host_w2_1 (j : Fin 64) (q : Fin 16) :
    H1 m c (Proc.devRef .tc main_call0_v9) (ix3 (1 : Fin 2) j q) = m ((c : Thread nD τ).loc main_arg8) (ix2 j q) := by
  refine (congrFun (e_v9 m c) (ix3 (1 : Fin 2) j q)).trans ?_
  refine (concatenate_pair_apply_right (s₁ := S1x64x16) (s₂ := S1x64x16) (0 : Fin S2x64x16.rank) _ _ _
    (ix3 (1 : Fin 2) j q) rfl rfl (ix3 (0 : Fin 1) j q) (fun b => ?_) rfl).trans ?_
  · match b with
    | ⟨0, _⟩ => exact fun hne => absurd rfl hne
    | ⟨1, _⟩ => exact fun _ => rfl
    | ⟨2, _⟩ => exact fun _ => rfl
  · refine broadcastInDim_apply _ _ _ _ (ix2 j q) (fun a => ?_)
    match a with
    | ⟨0, _⟩ => show j.val = if (64 : Nat) = 1 then 0 else j.val; rw [if_neg (by decide)]
    | ⟨1, _⟩ => show q.val = if (16 : Nat) = 1 then 0 else q.val; rw [if_neg (by decide)]

/-- The stacked second-layer biases as the host operations' term of the two arguments. -/
theorem e_v13 :
    (H1 m c (Proc.devRef .tc main_call0_v13) : S2x1x16.Idx → EReal)
      = shapeCast S2x1x16 (concatenate S2x16 0
          [⟨S1x16, broadcastInDim S1x16 ![1] bcast_S16_S1x16_1 (m ((c : Thread nD τ).loc main_arg5))⟩,
           ⟨S1x16, broadcastInDim S1x16 ![1] bcast_S16_S1x16_1 (m ((c : Thread nD τ).loc main_arg9))⟩]
          concatenates_S1x16_S1x16_S2x16_d0) shapeCasts_S2x16_S2x1x16 := by
  dsimp only [H1, hostOps0]
  after_results
  rfl

/-- Row 0 of the stacked second-layer biases is view 0's vector. -/
theorem host_b2_0 (q : Fin 16) :
    H1 m c (Proc.devRef .tc main_call0_v13) (ix3 (0 : Fin 2) (0 : Fin 1) q) = m ((c : Thread nD τ).loc main_arg5) (ix1 q) := by
  refine (congrFun (e_v13 m c) (ix3 (0 : Fin 2) (0 : Fin 1) q)).trans ?_
  refine (shapeCast_apply _ shapeCasts_S2x16_S2x1x16 (ix3 (0 : Fin 2) (0 : Fin 1) q) (ix2 (0 : Fin 2) q) ?_).trans ?_
  · rewrite [Shape.rowMajor_val_two, Shape.rowMajor_val_three]
    show 0 * 16 + q.val = (0 * 1 + 0) * 16 + q.val
    omega
  refine (concatenate_pair_apply_left (s₁ := S1x16) (s₂ := S1x16) (0 : Fin S2x16.rank) _ _ _
    (ix2 (0 : Fin 2) q) rfl (ix2 (0 : Fin 1) q) (fun b => ?_)).trans ?_
  · match b with
    | ⟨0, _⟩ => rfl
    | ⟨1, _⟩ => rfl
  · refine broadcastInDim_apply _ _ _ _ (ix1 q) (fun a => ?_)
    match a with
    | ⟨0, _⟩ => show q.val = if (16 : Nat) = 1 then 0 else q.val; rw [if_neg (by decide)]

/-- Row 1 of the stacked second-layer biases is view 1's vector. -/
theorem host_b2_1 (q : Fin 16) :
    H1 m c (Proc.devRef .tc main_call0_v13) (ix3 (1 : Fin 2) (0 : Fin 1) q) = m ((c : Thread nD τ).loc main_arg9) (ix1 q) := by
  refine (congrFun (e_v13 m c) (ix3 (1 : Fin 2) (0 : Fin 1) q)).trans ?_
  refine (shapeCast_apply _ shapeCasts_S2x16_S2x1x16 (ix3 (1 : Fin 2) (0 : Fin 1) q) (ix2 (1 : Fin 2) q) ?_).trans ?_
  · rewrite [Shape.rowMajor_val_two, Shape.rowMajor_val_three]
    show 1 * 16 + q.val = (1 * 1 + 0) * 16 + q.val
    omega
  refine (concatenate_pair_apply_right (s₁ := S1x16) (s₂ := S1x16) (0 : Fin S2x16.rank) _ _ _
    (ix2 (1 : Fin 2) q) rfl rfl (ix2 (0 : Fin 1) q) (fun b => ?_) rfl).trans ?_
  · match b with
    | ⟨0, _⟩ => exact fun hne => absurd rfl hne
    | ⟨1, _⟩ => exact fun _ => rfl
  · refine broadcastInDim_apply _ _ _ _ (ix1 q) (fun a => ?_)
    match a with
    | ⟨0, _⟩ => show q.val = if (16 : Nat) = 1 then 0 else q.val; rw [if_neg (by decide)]

end Cert.KernelIdeal.Val

end
-- ==== Proof.Spec.lean ====
/-
  The function both programs compute, entry by entry, on the extended reals.

  A two-view graph convolution. For each view v, with adjacency a_v, feature transform w1_v, bias b1_v,
  projection w2_v and output bias b2_v:
    s_v = x · w1_v                         (feat)
    h_v = max (a_v · s_v + b1_v) z         (hidden; z is the zero word's value, left a parameter)
    t_v = h_v · w2_v                       (proj)
  and the result is (a_0 · t_0 + (b2_0 + b2_1)) + a_1 · t_1 (out), the order in which the kernel
  accumulates the two views into one block. The reference adds each view's bias to its own term and sums
  the two over a stacked axis from zero: the same extended real by commutativity and associativity of +.
-/
import Idealize.ShloMosaic.PureOps.Ideal
import Idealize.ShloMosaic.Lib.ValueIdx

noncomputable section

namespace Cert.Spec

open Idealize.ShloMosaic

/-- One entry of x · w over 128 features. -/
def feat (x : Fin 10000 → Fin 128 → EReal) (w : Fin 128 → Fin 64 → EReal) (r : Fin 10000) (j : Fin 64) : EReal :=
  ∑ k : Fin 128, x r k * w k j

/-- One entry of max (a · s + b) z: a row of the adjacency against a column of s, plus the bias, clipped below at z. -/
def hidden (a : Fin 10000 → Fin 10000 → EReal) (s : Fin 10000 → Fin 64 → EReal) (b : Fin 64 → EReal) (z : EReal)
    (r : Fin 10000) (j : Fin 64) : EReal :=
  max ((∑ k : Fin 10000, a r k * s k j) + b j) z

/-- One entry of h · w over the 64 hidden units. -/
def proj (h : Fin 10000 → Fin 64 → EReal) (w : Fin 64 → Fin 16 → EReal) (r : Fin 10000) (q : Fin 16) : EReal :=
  ∑ j : Fin 64, h r j * w j q

/-- One entry of a · t: a row of the adjacency against a column of t. -/
def agg (a : Fin 10000 → Fin 10000 → EReal) (t : Fin 10000 → Fin 16 → EReal) (r : Fin 10000) (q : Fin 16) : EReal :=
  ∑ k : Fin 10000, a r k * t k q

/-- One view's projected hidden layer t_v. -/
def view (a : Fin 10000 → Fin 10000 → EReal) (x : Fin 10000 → Fin 128 → EReal) (w1 : Fin 128 → Fin 64 → EReal)
    (b1 : Fin 64 → EReal) (w2 : Fin 64 → Fin 16 → EReal) (z : EReal) : Fin 10000 → Fin 16 → EReal :=
  proj (hidden a (feat x w1) b1 z) w2

/-- The result: view 0's aggregate with both output biases, then view 1's aggregate added. -/
def out (x : Fin 10000 → Fin 128 → EReal) (a0 a1 : Fin 10000 → Fin 10000 → EReal)
    (w10 : Fin 128 → Fin 64 → EReal) (b10 : Fin 64 → EReal) (w20 : Fin 64 → Fin 16 → EReal) (b20 : Fin 16 → EReal)
    (w11 : Fin 128 → Fin 64 → EReal) (b11 : Fin 64 → EReal) (w21 : Fin 64 → Fin 16 → EReal) (b21 : Fin 16 → EReal)
    (z : EReal) (r : Fin 10000) (q : Fin 16) : EReal :=
  (agg a0 (view a0 x w10 b10 w20 z) r q + (b20 q + b21 q)) + agg a1 (view a1 x w11 b11 w21 z) r q

end Cert.Spec

end
-- ==== Proof.Val.Final.lean ====
/-
  The kernel program's result, entry by entry, is the specification's value.

  The result array is what region 2's write-backs leave: view 0's product with both output biases plus view 1's
  product, over the array t that region 1 left, itself over the array s that region 0 left, all three regions reading
  the adjacency and the stacked weights and biases the host operations wrote. Unfolding the three closed forms one
  inside the other gives the nested sums of the specification; the stacked arrays read at view v are view v's argument.
-/
import proofs.«178646_g43207370998080_cont_sun_c4_156_2_alg».proof.Proof.KI.Run
import proofs.«178646_g43207370998080_cont_sun_c4_156_2_alg».proof.Proof.Val.G
import proofs.«178646_g43207370998080_cont_sun_c4_156_2_alg».proof.Proof.Val.V0
import proofs.«178646_g43207370998080_cont_sun_c4_156_2_alg».proof.Proof.Val.V1
import proofs.«178646_g43207370998080_cont_sun_c4_156_2_alg».proof.Proof.Val.V2
import proofs.«178646_g43207370998080_cont_sun_c4_156_2_alg».proof.Proof.Val.Host
import proofs.«178646_g43207370998080_cont_sun_c4_156_2_alg».proof.Proof.Spec

noncomputable section

namespace Cert.KernelIdeal.Val

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-! ## The buffers the regions read, followed back through the run -/

theorem U1_arg0 : U1 m c main_arg0 = m ((c : Thread nD τ).loc main_arg0) := B1_of m c main_arg0 (by decide)
theorem U2_arg1 : U2 m c main_arg1 = m ((c : Thread nD τ).loc main_arg1) :=
  (B2_of_ne m c main_arg1 (by decide)).trans (B1_of m c main_arg1 (by decide))
theorem U3_arg1 : U3 m c main_arg1 = m ((c : Thread nD τ).loc main_arg1) := (B3_in m c 0 rfl).trans (U2_arg1 m c)
theorem U2_v6 : U2 m c main_call0_v6 = H1 m c (Proc.devRef .tc main_call0_v6) := B2_of_ne m c main_call0_v6 (by decide)
theorem U2_v9 : U2 m c main_call0_v9 = H1 m c (Proc.devRef .tc main_call0_v9) := B2_of_ne m c main_call0_v9 (by decide)
theorem U3_v13 : U3 m c main_call0_v13 = H1 m c (Proc.devRef .tc main_call0_v13) :=
  (B3_of_ne m c main_call0_v13 (by decide)).trans (B2_of_ne m c main_call0_v13 (by decide))

/-- Region 0 leaves s. -/
theorem U2_v14 : U2 m c main_call0_v14 = G0 (m ((c : Thread nD τ).loc main_arg0)) (H1 m c (Proc.devRef .tc main_call0_v2)) :=
  (B2_arr m c 2).trans ((final0 (U1 m) c).trans (by rw [U1_arg0]))
/-- Region 1 leaves t. -/
theorem U3_v15 : U3 m c main_call0_v15
    = G1 (m ((c : Thread nD τ).loc main_arg1)) (G0 (m ((c : Thread nD τ).loc main_arg0)) (H1 m c (Proc.devRef .tc main_call0_v2)))
        (H1 m c (Proc.devRef .tc main_call0_v6)) (H1 m c (Proc.devRef .tc main_call0_v9)) :=
  (B3_arr m c 4).trans ((final1 (U2 m) c).trans (by rw [U2_arg1, U2_v14, U2_v6, U2_v9]))
/-- Region 2 leaves the result. -/
theorem B4_v0 : B4 m c (Proc.devRef .tc main_v0)
    = G2 (m ((c : Thread nD τ).loc main_arg1)) (G1 (m ((c : Thread nD τ).loc main_arg1)) (G0 (m ((c : Thread nD τ).loc main_arg0)) (H1 m c (Proc.devRef .tc main_call0_v2)))
        (H1 m c (Proc.devRef .tc main_call0_v6)) (H1 m c (Proc.devRef .tc main_call0_v9)))
        (H1 m c (Proc.devRef .tc main_call0_v13)) :=
  (B4_arr m c 3).trans ((final2 (U3 m) c).trans (by rw [U3_arg1, U3_v15, U3_v13]))

/-! ## The nested sums are the specification's -/

/-- View 0's s. -/
theorem s_eq0 (r : Fin 10000) (j : Fin 64) :
    g0 (m ((c : Thread nD τ).loc main_arg0)) (H1 m c (Proc.devRef .tc main_call0_v2)) (0 : Fin 2) r j
      = Cert.Spec.feat (fun r k => m ((c : Thread nD τ).loc main_arg0) (ix2 r k)) (fun k j => m ((c : Thread nD τ).loc main_arg2) (ix2 k j)) r j := by
  unfold g0 Cert.Spec.feat
  exact Finset.sum_congr rfl fun k _ => by rw [host_w1_0]
/-- View 1's s. -/
theorem s_eq1 (r : Fin 10000) (j : Fin 64) :
    g0 (m ((c : Thread nD τ).loc main_arg0)) (H1 m c (Proc.devRef .tc main_call0_v2)) (1 : Fin 2) r j
      = Cert.Spec.feat (fun r k => m ((c : Thread nD τ).loc main_arg0) (ix2 r k)) (fun k j => m ((c : Thread nD τ).loc main_arg6) (ix2 k j)) r j := by
  unfold g0 Cert.Spec.feat
  exact Finset.sum_congr rfl fun k _ => by rw [host_w1_1]

/-- View 0's t. -/
theorem t_eq0 (r : Fin 10000) (q : Fin 16) :
    g1 (m ((c : Thread nD τ).loc main_arg1)) (G0 (m ((c : Thread nD τ).loc main_arg0)) (H1 m c (Proc.devRef .tc main_call0_v2)))
        (H1 m c (Proc.devRef .tc main_call0_v6)) (H1 m c (Proc.devRef .tc main_call0_v9)) (0 : Fin 2) r q
      = Cert.Spec.view (fun r k => m ((c : Thread nD τ).loc main_arg1) (ix3 (0 : Fin 2) r k)) (fun r k => m ((c : Thread nD τ).loc main_arg0) (ix2 r k))
          (fun k j => m ((c : Thread nD τ).loc main_arg2) (ix2 k j)) (fun j => m ((c : Thread nD τ).loc main_arg3) (ix1 j)) (fun j q => m ((c : Thread nD τ).loc main_arg4) (ix2 j q)) zw r q := by
  unfold g1 Cert.Spec.view Cert.Spec.proj Cert.Spec.hidden
  refine Finset.sum_congr rfl fun j _ => ?_
  rw [host_b1_0, host_w2_0]
  refine congrArg (fun z => max (z + _) zw * _) (Finset.sum_congr rfl fun k _ => ?_)
  rw [G0_apply, s_eq0]
/-- View 1's t. -/
theorem t_eq1 (r : Fin 10000) (q : Fin 16) :
    g1 (m ((c : Thread nD τ).loc main_arg1)) (G0 (m ((c : Thread nD τ).loc main_arg0)) (H1 m c (Proc.devRef .tc main_call0_v2)))
        (H1 m c (Proc.devRef .tc main_call0_v6)) (H1 m c (Proc.devRef .tc main_call0_v9)) (1 : Fin 2) r q
      = Cert.Spec.view (fun r k => m ((c : Thread nD τ).loc main_arg1) (ix3 (1 : Fin 2) r k)) (fun r k => m ((c : Thread nD τ).loc main_arg0) (ix2 r k))
          (fun k j => m ((c : Thread nD τ).loc main_arg6) (ix2 k j)) (fun j => m ((c : Thread nD τ).loc main_arg7) (ix1 j)) (fun j q => m ((c : Thread nD τ).loc main_arg8) (ix2 j q)) zw r q := by
  unfold g1 Cert.Spec.view Cert.Spec.proj Cert.Spec.hidden
  refine Finset.sum_congr rfl fun j _ => ?_
  rw [host_b1_1, host_w2_1]
  refine congrArg (fun z => max (z + _) zw * _) (Finset.sum_congr rfl fun k _ => ?_)
  rw [G0_apply, s_eq1]

/-- The kernel program's result at (r, q) is the specification's value of the launch arguments. -/
theorem out_eq (r : Fin 10000) (q : Fin 16) :
    (B4 m c (Proc.devRef .tc main_v0) : S10000x16.Idx → EReal) (ix2 r q)
      = Cert.Spec.out (fun r k => m ((c : Thread nD τ).loc main_arg0) (ix2 r k)) (fun r k => m ((c : Thread nD τ).loc main_arg1) (ix3 (0 : Fin 2) r k)) (fun r k => m ((c : Thread nD τ).loc main_arg1) (ix3 (1 : Fin 2) r k))
          (fun k j => m ((c : Thread nD τ).loc main_arg2) (ix2 k j)) (fun j => m ((c : Thread nD τ).loc main_arg3) (ix1 j)) (fun j q => m ((c : Thread nD τ).loc main_arg4) (ix2 j q)) (fun q => m ((c : Thread nD τ).loc main_arg5) (ix1 q))
          (fun k j => m ((c : Thread nD τ).loc main_arg6) (ix2 k j)) (fun j => m ((c : Thread nD τ).loc main_arg7) (ix1 j)) (fun j q => m ((c : Thread nD τ).loc main_arg8) (ix2 j q)) (fun q => m ((c : Thread nD τ).loc main_arg9) (ix1 q))
          (Ideal.ofBits .f32 0x00000000#32) r q := by
  rw [B4_v0, G2_apply]
  unfold g2 Cert.Spec.out Cert.Spec.agg
  rw [host_b2_0, host_b2_1]
  refine congrArg₂ (fun a b => (a + _) + b) (Finset.sum_congr rfl fun k _ => ?_) (Finset.sum_congr rfl fun k _ => ?_)
  · rw [G1_apply, t_eq0]
  · rw [G1_apply, t_eq1]

end Cert.KernelIdeal.Val

end
-- ==== Proof.RefSpec.lean ====
/-
  The reference program computes the two-view graph convolution of Spec.lean, entry by entry.

  Each view is read down its chain of operations: the slab of the adjacency tensor (a slice and a reshape),
  the feature transform x · w1 (a contraction over 128), the aggregate a · (x · w1) plus the bias clipped below
  at the zero word's value, the projection onto 16 classes, and the second aggregate plus the output bias. The
  two views are stacked along a new axis of extent 2 and summed over it from zero; regrouping the sum by
  commutativity and associativity of + on the extended reals gives Spec.out.
-/
import proofs.«178646_g43207370998080_cont_sun_c4_156_2_alg».proof.Proof.Gen.ReferenceIdeal.Read
import proofs.«178646_g43207370998080_cont_sun_c4_156_2_alg».proof.Proof.Spec
import Idealize.ShloMosaic.Lib.ValueIdx
import Idealize.ShloMosaic.Lib.Pipeline.Value
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.ValueIdx

/-! ## View 0 -/

/-- Slab 0 of the adjacency tensor, read through the slice and the reshape: the reshape's row-major arithmetic on
    (r, k) with k < 10000 gives back r and k. -/
theorem adj0 (x1 : (⟨S2x10000x10000, .f32⟩ : BufTy).Contents (Elt Ideal)) (r k : Fin 10000) :
    val_main_v1 (F := Ideal) x1 (ix2 r k) = x1 (ix3 (0 : Fin 2) r k) := by
  rw [val_main_v1_apply, val_main_v0_apply]
  refine congrArg x1 (funext fun a => Fin.ext ?_)
  match a with
  | ⟨0, _⟩ => rfl
  | ⟨1, _⟩ =>
    show (r.val * 10000 + k.val) / 10000 % 10000 = r.val
    have hr := r.isLt; have hk := k.isLt; omega
  | ⟨2, _⟩ =>
    show (r.val * 10000 + k.val) % 10000 = k.val
    have hr := r.isLt; have hk := k.isLt; omega

/-- x · w1 for view 0: the contraction over the 128 features. -/
theorem feat0 (x0 : (⟨S10000x128, .f32⟩ : BufTy).Contents (Elt Ideal)) (x2 : (⟨S128x64, .f32⟩ : BufTy).Contents (Elt Ideal))
    (r : Fin 10000) (j : Fin 64) :
    val_main_v2 (F := Ideal) x0 x2 (ix2 r j) = Cert.Spec.feat (fun r k => x0 (ix2 r k)) (fun k j => x2 (ix2 k j)) r j := by
  rw [val_main_v2_apply]
  unfold Cert.Spec.feat
  refine Finset.sum_congr rfl fun k _ => ?_
  have el : lidx_main_v2 (ix2 r j) k = ix2 r k := funext fun a => Fin.ext (by
    match a with
    | ⟨0, _⟩ => rfl
    | ⟨1, _⟩ => rfl)
  have er : ridx_main_v2 (ix2 r j) k = ix2 k j := funext fun a => Fin.ext (by
    match a with
    | ⟨0, _⟩ => rfl
    | ⟨1, _⟩ => rfl)
  rw [el, er]

/-- a_0 · (x · w1): a row of slab 0 against a column of the feature transform. -/
theorem pre0 (x0 : (⟨S10000x128, .f32⟩ : BufTy).Contents (Elt Ideal)) (x1 : (⟨S2x10000x10000, .f32⟩ : BufTy).Contents (Elt Ideal)) (x2 : (⟨S128x64, .f32⟩ : BufTy).Contents (Elt Ideal))
    (r : Fin 10000) (j : Fin 64) :
    val_main_v3 (F := Ideal) x0 x1 x2 (ix2 r j)
      = ∑ k : Fin 10000, x1 (ix3 (0 : Fin 2) r k) * Cert.Spec.feat (fun r k => x0 (ix2 r k)) (fun k j => x2 (ix2 k j)) k j := by
  rw [val_main_v3_apply]
  refine Finset.sum_congr rfl fun k _ => ?_
  have el : lidx_main_v3 (ix2 r j) k = ix2 r k := funext fun a => Fin.ext (by
    match a with
    | ⟨0, _⟩ => rfl
    | ⟨1, _⟩ => rfl)
  have er : ridx_main_v3 (ix2 r j) k = ix2 k j := funext fun a => Fin.ext (by
    match a with
    | ⟨0, _⟩ => rfl
    | ⟨1, _⟩ => rfl)
  rw [el, er, adj0, feat0]

/-- The hidden layer of view 0: the aggregate plus the bias row, clipped below at the zero word's value. -/
theorem hidden0 (x0 : (⟨S10000x128, .f32⟩ : BufTy).Contents (Elt Ideal)) (x1 : (⟨S2x10000x10000, .f32⟩ : BufTy).Contents (Elt Ideal)) (x2 : (⟨S128x64, .f32⟩ : BufTy).Contents (Elt Ideal)) (x3 : (⟨S64, .f32⟩ : BufTy).Contents (Elt Ideal))
    (r : Fin 10000) (j : Fin 64) :
    val_main_v7 (F := Ideal) x0 x1 x2 x3 (ix2 r j) = Cert.Spec.hidden (fun r k => x1 (ix3 (0 : Fin 2) r k)) (Cert.Spec.feat (fun r k => x0 (ix2 r k)) (fun k j => x2 (ix2 k j))) (fun j => x3 (ix1 j)) (Ideal.ofBits .f32 0x00000000#32) r j := by
  rw [val_main_v7_apply, val_main_v6_apply, val_main_call0_v0_apply, val_main_call0_cst_apply, val_main_v5_apply,
    val_main_v4_apply, pre0]
  have e : idx_main_v4 (idx_main_v5 (ix2 r j)) = ix1 j := funext fun a => Fin.ext (by
    match a with
    | ⟨0, _⟩ => rfl)
  rw [e, Ideal.maximumf_def, Ideal.addf_def, Ideal.ofBits_def]
  rfl

/-- The projection of view 0's hidden layer onto the 16 classes. -/
theorem proj0 (x0 : (⟨S10000x128, .f32⟩ : BufTy).Contents (Elt Ideal)) (x1 : (⟨S2x10000x10000, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal))
    (r : Fin 10000) (q : Fin 16) :
    val_main_v8 (F := Ideal) x0 x1 x2 x3 x4 (ix2 r q) = Cert.Spec.view (fun r k => x1 (ix3 (0 : Fin 2) r k)) (fun r k => x0 (ix2 r k)) (fun k j => x2 (ix2 k j)) (fun j => x3 (ix1 j)) (fun j q => x4 (ix2 j q)) (Ideal.ofBits .f32 0x00000000#32) r q := by
  rw [val_main_v8_apply]
  unfold Cert.Spec.view Cert.Spec.proj
  refine Finset.sum_congr rfl fun k _ => ?_
  have el : lidx_main_v8 (ix2 r q) k = ix2 r k := funext fun a => Fin.ext (by
    match a with
    | ⟨0, _⟩ => rfl
    | ⟨1, _⟩ => rfl)
  have er : ridx_main_v8 (ix2 r q) k = ix2 k q := funext fun a => Fin.ext (by
    match a with
    | ⟨0, _⟩ => rfl
    | ⟨1, _⟩ => rfl)
  rw [el, er, hidden0]

/-- a_0 · t_0: a row of slab 0 against a column of the projected hidden layer. -/
theorem agg0 (x0 : (⟨S10000x128, .f32⟩ : BufTy).Contents (Elt Ideal)) (x1 : (⟨S2x10000x10000, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal))
    (r : Fin 10000) (q : Fin 16) :
    val_main_v9 (F := Ideal) x0 x1 x2 x3 x4 (ix2 r q) = Cert.Spec.agg (fun r k => x1 (ix3 (0 : Fin 2) r k)) (Cert.Spec.view (fun r k => x1 (ix3 (0 : Fin 2) r k)) (fun r k => x0 (ix2 r k)) (fun k j => x2 (ix2 k j)) (fun j => x3 (ix1 j)) (fun j q => x4 (ix2 j q)) (Ideal.ofBits .f32 0x00000000#32)) r q := by
  rw [val_main_v9_apply]
  unfold Cert.Spec.agg
  refine Finset.sum_congr rfl fun k _ => ?_
  have el : lidx_main_v9 (ix2 r q) k = ix2 r k := funext fun a => Fin.ext (by
    match a with
    | ⟨0, _⟩ => rfl
    | ⟨1, _⟩ => rfl)
  have er : ridx_main_v9 (ix2 r q) k = ix2 k q := funext fun a => Fin.ext (by
    match a with
    | ⟨0, _⟩ => rfl
    | ⟨1, _⟩ => rfl)
  rw [el, er, adj0, proj0]

/-- View 0's term of the result: the aggregate plus the output bias row. -/
theorem term0 (x0 : (⟨S10000x128, .f32⟩ : BufTy).Contents (Elt Ideal)) (x1 : (⟨S2x10000x10000, .f32⟩ : BufTy).Contents (Elt Ideal)) (x2 : (⟨S128x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal))
    (r : Fin 10000) (q : Fin 16) :
    val_main_v12 (F := Ideal) x0 x1 x2 x3 x4 x5 (ix2 r q) = Cert.Spec.agg (fun r k => x1 (ix3 (0 : Fin 2) r k)) (Cert.Spec.view (fun r k => x1 (ix3 (0 : Fin 2) r k)) (fun r k => x0 (ix2 r k)) (fun k j => x2 (ix2 k j)) (fun j => x3 (ix1 j)) (fun j q => x4 (ix2 j q)) (Ideal.ofBits .f32 0x00000000#32)) r q + x5 (ix1 q) := by
  rw [val_main_v12_apply, val_main_v11_apply, val_main_v10_apply, agg0]
  have e : idx_main_v10 (idx_main_v11 (ix2 r q)) = ix1 q := funext fun a => Fin.ext (by
    match a with
    | ⟨0, _⟩ => rfl)
  rw [e, Ideal.addf_def]

/-! ## View 1 -/

/-- Slab 1 of the adjacency tensor, read through the slice and the reshape: the reshape's row-major arithmetic on
    (r, k) with k < 10000 gives back r and k. -/
theorem adj1 (x1 : (⟨S2x10000x10000, .f32⟩ : BufTy).Contents (Elt Ideal)) (r k : Fin 10000) :
    val_main_v14 (F := Ideal) x1 (ix2 r k) = x1 (ix3 (1 : Fin 2) r k) := by
  rw [val_main_v14_apply, val_main_v13_apply]
  refine congrArg x1 (funext fun a => Fin.ext ?_)
  match a with
  | ⟨0, _⟩ => rfl
  | ⟨1, _⟩ =>
    show (r.val * 10000 + k.val) / 10000 % 10000 = r.val
    have hr := r.isLt; have hk := k.isLt; omega
  | ⟨2, _⟩ =>
    show (r.val * 10000 + k.val) % 10000 = k.val
    have hr := r.isLt; have hk := k.isLt; omega

/-- x · w1 for view 1: the contraction over the 128 features. -/
theorem feat1 (x0 : (⟨S10000x128, .f32⟩ : BufTy).Contents (Elt Ideal)) (x6 : (⟨S128x64, .f32⟩ : BufTy).Contents (Elt Ideal))
    (r : Fin 10000) (j : Fin 64) :
    val_main_v15 (F := Ideal) x0 x6 (ix2 r j) = Cert.Spec.feat (fun r k => x0 (ix2 r k)) (fun k j => x6 (ix2 k j)) r j := by
  rw [val_main_v15_apply]
  unfold Cert.Spec.feat
  refine Finset.sum_congr rfl fun k _ => ?_
  have el : lidx_main_v15 (ix2 r j) k = ix2 r k := funext fun a => Fin.ext (by
    match a with
    | ⟨0, _⟩ => rfl
    | ⟨1, _⟩ => rfl)
  have er : ridx_main_v15 (ix2 r j) k = ix2 k j := funext fun a => Fin.ext (by
    match a with
    | ⟨0, _⟩ => rfl
    | ⟨1, _⟩ => rfl)
  rw [el, er]

/-- a_1 · (x · w1): a row of slab 1 against a column of the feature transform. -/
theorem pre1 (x0 : (⟨S10000x128, .f32⟩ : BufTy).Contents (Elt Ideal)) (x1 : (⟨S2x10000x10000, .f32⟩ : BufTy).Contents (Elt Ideal)) (x6 : (⟨S128x64, .f32⟩ : BufTy).Contents (Elt Ideal))
    (r : Fin 10000) (j : Fin 64) :
    val_main_v16 (F := Ideal) x0 x1 x6 (ix2 r j)
      = ∑ k : Fin 10000, x1 (ix3 (1 : Fin 2) r k) * Cert.Spec.feat (fun r k => x0 (ix2 r k)) (fun k j => x6 (ix2 k j)) k j := by
  rw [val_main_v16_apply]
  refine Finset.sum_congr rfl fun k _ => ?_
  have el : lidx_main_v16 (ix2 r j) k = ix2 r k := funext fun a => Fin.ext (by
    match a with
    | ⟨0, _⟩ => rfl
    | ⟨1, _⟩ => rfl)
  have er : ridx_main_v16 (ix2 r j) k = ix2 k j := funext fun a => Fin.ext (by
    match a with
    | ⟨0, _⟩ => rfl
    | ⟨1, _⟩ => rfl)
  rw [el, er, adj1, feat1]

/-- The hidden layer of view 1: the aggregate plus the bias row, clipped below at the zero word's value. -/
theorem hidden1 (x0 : (⟨S10000x128, .f32⟩ : BufTy).Contents (Elt Ideal)) (x1 : (⟨S2x10000x10000, .f32⟩ : BufTy).Contents (Elt Ideal)) (x6 : (⟨S128x64, .f32⟩ : BufTy).Contents (Elt Ideal)) (x7 : (⟨S64, .f32⟩ : BufTy).Contents (Elt Ideal))
    (r : Fin 10000) (j : Fin 64) :
    val_main_v20 (F := Ideal) x0 x1 x6 x7 (ix2 r j) = Cert.Spec.hidden (fun r k => x1 (ix3 (1 : Fin 2) r k)) (Cert.Spec.feat (fun r k => x0 (ix2 r k)) (fun k j => x6 (ix2 k j))) (fun j => x7 (ix1 j)) (Ideal.ofBits .f32 0x00000000#32) r j := by
  rw [val_main_v20_apply, val_main_v19_apply, val_main_call1_v0_apply, val_main_call1_cst_apply, val_main_v18_apply,
    val_main_v17_apply, pre1]
  have e : idx_main_v17 (idx_main_v18 (ix2 r j)) = ix1 j := funext fun a => Fin.ext (by
    match a with
    | ⟨0, _⟩ => rfl)
  rw [e, Ideal.maximumf_def, Ideal.addf_def, Ideal.ofBits_def]
  rfl

/-- The projection of view 1's hidden layer onto the 16 classes. -/
theorem proj1 (x0 : (⟨S10000x128, .f32⟩ : BufTy).Contents (Elt Ideal)) (x1 : (⟨S2x10000x10000, .f32⟩ : BufTy).Contents (Elt Ideal)) (x6 : (⟨S128x64, .f32⟩ : BufTy).Contents (Elt Ideal)) (x7 : (⟨S64, .f32⟩ : BufTy).Contents (Elt Ideal)) (x8 : (⟨S64x16, .f32⟩ : BufTy).Contents (Elt Ideal))
    (r : Fin 10000) (q : Fin 16) :
    val_main_v21 (F := Ideal) x0 x1 x6 x7 x8 (ix2 r q) = Cert.Spec.view (fun r k => x1 (ix3 (1 : Fin 2) r k)) (fun r k => x0 (ix2 r k)) (fun k j => x6 (ix2 k j)) (fun j => x7 (ix1 j)) (fun j q => x8 (ix2 j q)) (Ideal.ofBits .f32 0x00000000#32) r q := by
  rw [val_main_v21_apply]
  unfold Cert.Spec.view Cert.Spec.proj
  refine Finset.sum_congr rfl fun k _ => ?_
  have el : lidx_main_v21 (ix2 r q) k = ix2 r k := funext fun a => Fin.ext (by
    match a with
    | ⟨0, _⟩ => rfl
    | ⟨1, _⟩ => rfl)
  have er : ridx_main_v21 (ix2 r q) k = ix2 k q := funext fun a => Fin.ext (by
    match a with
    | ⟨0, _⟩ => rfl
    | ⟨1, _⟩ => rfl)
  rw [el, er, hidden1]

/-- a_1 · t_1: a row of slab 1 against a column of the projected hidden layer. -/
theorem agg1 (x0 : (⟨S10000x128, .f32⟩ : BufTy).Contents (Elt Ideal)) (x1 : (⟨S2x10000x10000, .f32⟩ : BufTy).Contents (Elt Ideal)) (x6 : (⟨S128x64, .f32⟩ : BufTy).Contents (Elt Ideal)) (x7 : (⟨S64, .f32⟩ : BufTy).Contents (Elt Ideal)) (x8 : (⟨S64x16, .f32⟩ : BufTy).Contents (Elt Ideal))
    (r : Fin 10000) (q : Fin 16) :
    val_main_v22 (F := Ideal) x0 x1 x6 x7 x8 (ix2 r q) = Cert.Spec.agg (fun r k => x1 (ix3 (1 : Fin 2) r k)) (Cert.Spec.view (fun r k => x1 (ix3 (1 : Fin 2) r k)) (fun r k => x0 (ix2 r k)) (fun k j => x6 (ix2 k j)) (fun j => x7 (ix1 j)) (fun j q => x8 (ix2 j q)) (Ideal.ofBits .f32 0x00000000#32)) r q := by
  rw [val_main_v22_apply]
  unfold Cert.Spec.agg
  refine Finset.sum_congr rfl fun k _ => ?_
  have el : lidx_main_v22 (ix2 r q) k = ix2 r k := funext fun a => Fin.ext (by
    match a with
    | ⟨0, _⟩ => rfl
    | ⟨1, _⟩ => rfl)
  have er : ridx_main_v22 (ix2 r q) k = ix2 k q := funext fun a => Fin.ext (by
    match a with
    | ⟨0, _⟩ => rfl
    | ⟨1, _⟩ => rfl)
  rw [el, er, adj1, proj1]

/-- View 1's term of the result: the aggregate plus the output bias row. -/
theorem term1 (x0 : (⟨S10000x128, .f32⟩ : BufTy).Contents (Elt Ideal)) (x1 : (⟨S2x10000x10000, .f32⟩ : BufTy).Contents (Elt Ideal)) (x6 : (⟨S128x64, .f32⟩ : BufTy).Contents (Elt Ideal)) (x7 : (⟨S64, .f32⟩ : BufTy).Contents (Elt Ideal)) (x8 : (⟨S64x16, .f32⟩ : BufTy).Contents (Elt Ideal)) (x9 : (⟨S16, .f32⟩ : BufTy).Contents (Elt Ideal))
    (r : Fin 10000) (q : Fin 16) :
    val_main_v25 (F := Ideal) x0 x1 x6 x7 x8 x9 (ix2 r q) = Cert.Spec.agg (fun r k => x1 (ix3 (1 : Fin 2) r k)) (Cert.Spec.view (fun r k => x1 (ix3 (1 : Fin 2) r k)) (fun r k => x0 (ix2 r k)) (fun k j => x6 (ix2 k j)) (fun j => x7 (ix1 j)) (fun j q => x8 (ix2 j q)) (Ideal.ofBits .f32 0x00000000#32)) r q + x9 (ix1 q) := by
  rw [val_main_v25_apply, val_main_v24_apply, val_main_v23_apply, agg1]
  have e : idx_main_v23 (idx_main_v24 (ix2 r q)) = ix1 q := funext fun a => Fin.ext (by
    match a with
    | ⟨0, _⟩ => rfl)
  rw [e, Ideal.addf_def]

/-! ## The stacked axis and its sum -/

/-- Coordinate 0 of the stacked axis holds view 0's term. -/
theorem stack0 (x0 : (⟨S10000x128, .f32⟩ : BufTy).Contents (Elt Ideal)) (x1 : (⟨S2x10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (x6 : (⟨S128x64, .f32⟩ : BufTy).Contents (Elt Ideal)) (x7 : (⟨S64, .f32⟩ : BufTy).Contents (Elt Ideal))
    (x8 : (⟨S64x16, .f32⟩ : BufTy).Contents (Elt Ideal)) (x9 : (⟨S16, .f32⟩ : BufTy).Contents (Elt Ideal))
    (r : Fin 10000) (q : Fin 16) :
    val_main_v28 (F := Ideal) x0 x1 x2 x3 x4 x5 x6 x7 x8 x9 (ix3 r (0 : Fin 2) q)
      = val_main_v12 (F := Ideal) x0 x1 x2 x3 x4 x5 (ix2 r q) := by
  unfold val_main_v28
  refine (concatenate_pair_apply_left (s₁ := S10000x1x16) (s₂ := S10000x1x16) (1 : Fin S10000x2x16.rank) _ _ concatenates_S10000x1x16_S10000x1x16_S10000x2x16_d1
    (ix3 r (0 : Fin 2) q) rfl (ix3 r (0 : Fin 1) q) (fun b => ?_)).trans ?_
  · match b with
    | ⟨0, _⟩ => rfl
    | ⟨1, _⟩ => rfl
    | ⟨2, _⟩ => rfl
  · rw [val_main_v26_apply]
    exact congrArg _ (funext fun a => Fin.ext (by
      match a with
      | ⟨0, _⟩ => rfl
      | ⟨1, _⟩ => rfl))

/-- Coordinate 1 of the stacked axis holds view 1's term: the second piece, one past the first piece's extent 1. -/
theorem stack1 (x0 : (⟨S10000x128, .f32⟩ : BufTy).Contents (Elt Ideal)) (x1 : (⟨S2x10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (x6 : (⟨S128x64, .f32⟩ : BufTy).Contents (Elt Ideal)) (x7 : (⟨S64, .f32⟩ : BufTy).Contents (Elt Ideal))
    (x8 : (⟨S64x16, .f32⟩ : BufTy).Contents (Elt Ideal)) (x9 : (⟨S16, .f32⟩ : BufTy).Contents (Elt Ideal))
    (r : Fin 10000) (q : Fin 16) :
    val_main_v28 (F := Ideal) x0 x1 x2 x3 x4 x5 x6 x7 x8 x9 (ix3 r (1 : Fin 2) q)
      = val_main_v25 (F := Ideal) x0 x1 x6 x7 x8 x9 (ix2 r q) := by
  unfold val_main_v28
  refine (concatenate_pair_apply_right (s₁ := S10000x1x16) (s₂ := S10000x1x16) (1 : Fin S10000x2x16.rank) _ _ concatenates_S10000x1x16_S10000x1x16_S10000x2x16_d1
    (ix3 r (1 : Fin 2) q) rfl rfl (ix3 r (0 : Fin 1) q) (fun b => ?_) rfl).trans ?_
  · match b with
    | ⟨0, _⟩ => exact fun _ => rfl
    | ⟨1, _⟩ => exact fun hne => absurd rfl hne
    | ⟨2, _⟩ => exact fun _ => rfl
  · rw [val_main_v27_apply]
    exact congrArg _ (funext fun a => Fin.ext (by
      match a with
      | ⟨0, _⟩ => rfl
      | ⟨1, _⟩ => rfl))

/-- The sum from zero of the two stacked terms, regrouped as the specification writes it. -/
theorem regroup (A B b0 b1 : EReal) : 0 + ((A + b0) + (B + b1)) = (A + (b0 + b1)) + B := by
  rw [zero_add]
  calc (A + b0) + (B + b1) = A + (b0 + (B + b1)) := add_assoc _ _ _
    _ = A + (b0 + (b1 + B)) := by rw [add_comm B b1]
    _ = A + ((b0 + b1) + B) := by rw [add_assoc b0 b1 B]
    _ = (A + (b0 + b1)) + B := (add_assoc _ _ _).symm

/-- The reference's result, entry by entry, is the specification's. -/
theorem ref_is_spec
    (x0 : (⟨S10000x128, .f32⟩ : BufTy).Contents (Elt Ideal)) (x1 : (⟨S2x10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (x6 : (⟨S128x64, .f32⟩ : BufTy).Contents (Elt Ideal)) (x7 : (⟨S64, .f32⟩ : BufTy).Contents (Elt Ideal))
    (x8 : (⟨S64x16, .f32⟩ : BufTy).Contents (Elt Ideal)) (x9 : (⟨S16, .f32⟩ : BufTy).Contents (Elt Ideal))
    (r : Fin 10000) (q : Fin 16) :
    val_main_v29 (F := Ideal) x0 x1 x2 x3 x4 x5 x6 x7 x8 x9 (ix2 r q)
      = Cert.Spec.out (fun r k => x0 (ix2 r k)) (fun r k => x1 (ix3 (0 : Fin 2) r k)) (fun r k => x1 (ix3 (1 : Fin 2) r k))
          (fun k j => x2 (ix2 k j)) (fun j => x3 (ix1 j)) (fun j q => x4 (ix2 j q)) (fun q => x5 (ix1 q))
          (fun k j => x6 (ix2 k j)) (fun j => x7 (ix1 j)) (fun j q => x8 (ix2 j q)) (fun q => x9 (ix1 q))
          (Ideal.ofBits .f32 0x00000000#32) r q := by
  -- the sum starts from the zero word's value, which is 0
  have h0 : val_main_cst (F := Ideal) (Shape.Idx.first h_S_) = 0 := by
    rw [val_main_cst_apply, Ideal.ofBits_def, Ideal.ofBits_zero_f32]
  have e0 : idx_main_v29 (ix2 r q) 0 = ix3 r (0 : Fin 2) q := funext fun a => Fin.ext (by
    match a with
    | ⟨0, _⟩ => rfl
    | ⟨1, _⟩ => rfl
    | ⟨2, _⟩ => rfl)
  have e1 : idx_main_v29 (ix2 r q) 1 = ix3 r (1 : Fin 2) q := funext fun a => Fin.ext (by
    match a with
    | ⟨0, _⟩ => rfl
    | ⟨1, _⟩ => rfl
    | ⟨2, _⟩ => rfl)
  rw [val_main_v29_apply, h0, Fin.sum_univ_two, e0, e1, stack0, stack1, term0, term1]
  unfold Cert.Spec.out
  exact regroup _ _ _ _

end Cert.ReferenceIdeal.RefSpec

end
-- ==== Proof.lean ====
/-
  Two programs for a two-view graph convolution, out = Σ_v a_v · (max (a_v · (x · w1_v) + b1_v) 0 · w2_v) + b2_v,
  are the same function on the extended reals.

  The kernel runs three pipelined regions: s_v = x · w1_v for both views, row panel by row panel; then
  t_v = max (a_v · s_v + b1_v) 0 · w2_v, one panel of 200 adjacency rows at a time; then, per panel, view 0's product
  a_0 · t_0 with both output biases, to which view 1's product a_1 · t_1 is added before the panel is written back.
  The reference forms each view's a_v · t_v + b2_v and sums the two over a stacked axis starting from zero.
  Entry by entry both are (a_0·t_0 + (b2_0 + b2_1)) + a_1·t_1 with t_v the same nested sums: only commutativity and
  associativity of + on the extended reals separate the two, so no finiteness of the inputs is used.

  Each program's frame (it terminates, faults nowhere, leaves its arguments unchanged) comes from its run: the kernel's
  from the three regions' body triples chained through the host operations that stack the weights, the reference's from
  its list of host operations. No operation of the kernel was rewritten for the idealized reading, so there is nothing
  to preserve.
-/
import proofs.«178646_g43207370998080_cont_sun_c4_156_2_alg».proof.Defs
import proofs.«178646_g43207370998080_cont_sun_c4_156_2_alg».proof.Proof.Gen.Kernel
import proofs.«178646_g43207370998080_cont_sun_c4_156_2_alg».proof.Proof.Gen.KernelIdeal
import proofs.«178646_g43207370998080_cont_sun_c4_156_2_alg».proof.Proof.Gen.ReferenceIdeal
import proofs.«178646_g43207370998080_cont_sun_c4_156_2_alg».proof.Proof.Gen.Pre_finite_inputs
import proofs.«178646_g43207370998080_cont_sun_c4_156_2_alg».proof.Proof.Gen.ReferenceIdeal.Run
import proofs.«178646_g43207370998080_cont_sun_c4_156_2_alg».proof.Proof.K.Run
import proofs.«178646_g43207370998080_cont_sun_c4_156_2_alg».proof.Proof.KI.Run
import proofs.«178646_g43207370998080_cont_sun_c4_156_2_alg».proof.Proof.Val.Final
import proofs.«178646_g43207370998080_cont_sun_c4_156_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ

/-- So does the kernel read on the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both programs end with the specification's value at every entry of the result. -/
theorem algebraic : Cert.algebraic_KernelIdeal_ReferenceIdeal := by
  intro m ρ m' ρ' _ hagree
  refine ⟨fun c => Cert.KernelIdeal.Hand.B4 m c (Proc.devRef .tc Cert.KernelIdeal.main_v0), ?_, ?_⟩
  · exact (θ_run Cert.KernelIdeal.defs _ _).mono (fun r h c =>
      ⟨h c _ (Cert.KernelIdeal.Hand.mem_uc Cert.KernelIdeal.main_v0 (by decide)),
       (h c _ (Cert.KernelIdeal.Hand.mem_uc Cert.KernelIdeal.main_arg0 (by decide))).trans (Cert.KernelIdeal.Hand.B4_main_arg0 m c),
       (h c _ (Cert.KernelIdeal.Hand.mem_uc Cert.KernelIdeal.main_arg1 (by decide))).trans (Cert.KernelIdeal.Hand.B4_main_arg1 m c),
       (h c _ (Cert.KernelIdeal.Hand.mem_uc Cert.KernelIdeal.main_arg2 (by decide))).trans (Cert.KernelIdeal.Hand.B4_main_arg2 m c),
       (h c _ (Cert.KernelIdeal.Hand.mem_uc Cert.KernelIdeal.main_arg3 (by decide))).trans (Cert.KernelIdeal.Hand.B4_main_arg3 m c),
       (h c _ (Cert.KernelIdeal.Hand.mem_uc Cert.KernelIdeal.main_arg4 (by decide))).trans (Cert.KernelIdeal.Hand.B4_main_arg4 m c),
       (h c _ (Cert.KernelIdeal.Hand.mem_uc Cert.KernelIdeal.main_arg5 (by decide))).trans (Cert.KernelIdeal.Hand.B4_main_arg5 m c),
       (h c _ (Cert.KernelIdeal.Hand.mem_uc Cert.KernelIdeal.main_arg6 (by decide))).trans (Cert.KernelIdeal.Hand.B4_main_arg6 m c),
       (h c _ (Cert.KernelIdeal.Hand.mem_uc Cert.KernelIdeal.main_arg7 (by decide))).trans (Cert.KernelIdeal.Hand.B4_main_arg7 m c),
       (h c _ (Cert.KernelIdeal.Hand.mem_uc Cert.KernelIdeal.main_arg8 (by decide))).trans (Cert.KernelIdeal.Hand.B4_main_arg8 m c),
       (h c _ (Cert.KernelIdeal.Hand.mem_uc Cert.KernelIdeal.main_arg9 (by decide))).trans (Cert.KernelIdeal.Hand.B4_main_arg9 m c)⟩) (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq]
    funext i
    obtain ⟨r, q, rfl⟩ : ∃ (r : Fin 10000) (q : Fin 16), i = ValueIdx.ix2 r q := ⟨i 0, i 1, ValueIdx.eq_ix2 i⟩
    rw [Cert.ReferenceIdeal.RefSpec.ref_is_spec, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.KernelIdeal.Val.out_eq m c r q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
